-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x4096x1 : Shape := ⟨3, ![16, 4096, 1]⟩
abbrev S16x1x4096 : Shape := ⟨3, ![16, 1, 4096]⟩
abbrev S1x512x3 : Shape := ⟨3, ![1, 512, 3]⟩
abbrev S1x3x4096 : Shape := ⟨3, ![1, 3, 4096]⟩
abbrev S1x512x1 : Shape := ⟨3, ![1, 512, 1]⟩
abbrev S1x1x4096 : Shape := ⟨3, ![1, 1, 4096]⟩
abbrev S512x3 : Shape := ⟨2, ![512, 3]⟩
abbrev S3x4096 : Shape := ⟨2, ![3, 4096]⟩
abbrev S512x1 : Shape := ⟨2, ![512, 1]⟩
abbrev S1x4096 : Shape := ⟨2, ![1, 4096]⟩
abbrev S512x4096 : Shape := ⟨2, ![512, 4096]⟩
abbrev S512 : Shape := ⟨1, ![512]⟩
abbrev S4096 : Shape := ⟨1, ![4096]⟩
abbrev S16x4096 : Shape := ⟨2, ![16, 4096]⟩
abbrev S_ : Shape := ⟨0, ![]⟩

abbrev nBuf : Space → Nat
  | .hbm => 20
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x4096x1, .f32⟩
  | .hbm, ⟨4, _⟩ => ⟨S16x1x4096, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_9 : BitVec 32 := 0#32
  let v34 : BitVec 1 := Scalar.cmpi .ne v33 c0_i32_9
  v34

def k0_cond2 (i : grid0.Coords) : BitVec 1 :=
  let arg1 : BitVec 32 := BitVec.ofNat 32 (i 1).val
  let c0_i32_10 : BitVec 32 := 0#32
  let v35 : BitVec 1 := Scalar.cmpi .ne arg1 c0_i32_10
  let v36 : BitVec 32 := Scalar.extui v35
  let c0_i32_11 : BitVec 32 := 0#32
  let v37 : BitVec 1 := Scalar.cmpi .ne v36 c0_i32_11
  v37

def k0_cond3 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_12 : BitVec 32 := 0#32
  let v40 : BitVec 1 := Scalar.cmpi .ne v39 c0_i32_12
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x4096x3_S16x3x4096_0_2_1 : S16x4096x3.Transposes [0, 2, 1] S16x3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  shapeCasts_S512_S512x1 : S512.ShapeCasts S512x1
  reduces_S512x4096_S4096 : S512x4096.Reduces [0] S4096
  shapeCasts_S4096_S1x4096 : S4096.ShapeCasts S1x4096
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S16x4096x1_S16x4096 : S16x4096x1.ShapeCasts S16x4096
  shapeCasts_S16x1x4096_S16x4096 : S16x1x4096.ShapeCasts S16x4096
  reducesTo_S16x4096_S_d0_1 : S16x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x4096x3.size a
  hwx0_0 : ∀ i : grid0.Coords, EltTy.bits .f32 = 32 ∨ (Rect.block (s := S16x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x4096x1.size a
  hwx0_2 : ∀ i : grid0.Coords, EltTy.bits .f32 = 32 ∨ (Rect.block (s := S16x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S16x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Kernel.Cases.lean ====
/-
  The three guards of the kernel body, decided over the grid.

  The grid is 16 batches by 8 row tiles, visited batch-major, so point `t` is row tile `t % 8` of batch `t / 8`.
  The body stores the tile's column minima into the running-minimum buffer at the first tile of a batch (guard 1),
  folds them into it at every later tile (guard 2), and takes the square root of the buffer at the last tile
  (guard 3). One of the first two guards holds at every point, so the running-minimum window is stored at every point.
-/
import proofs.«179750_j19164144075465_2_alg».proof.Proof.Gen.Kernel.Frame
import proofs.«179750_j19164144075465_2_alg».proof.Proof.Gen.Kernel.Skeleton

set_option maxRecDepth 16384

noncomputable section

namespace Cert.Kernel.Body

open Idealize.ShloMosaic Idealize.ShloMosaic.TcCoe
open Idealize.SL Idealize.SL.Sem
open Cert.Kernel Cert.Kernel.Gen

/-- The grid has 128 points. -/
theorem N_eq : cfg0.N = 128 := N_0

/-- Guard 1 (first row tile of a batch) holds exactly at the points ≡ 0 (mod 8). -/
theorem guard1_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- Guard 2 (a later row tile) holds exactly at the points ≢ 0 (mod 8). -/
theorem guard2_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- Guard 3 (last row tile of a batch) holds exactly at the points ≡ 7 (mod 8). -/
theorem guard3_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate one of the first two guards holds: the running-minimum window is never idle. -/
theorem live3 : ∀ i : grid0.Coords, cfg0.idle 3 i = false :=
  (by decide +kernel : ∀ i : grid0.Coords, idle0 3 i = false)

end Cert.Kernel.Body

end
-- ==== Proof.Kernel.RunFirst.lean ====
/-
  The kernel body at the FIRST row tile of a batch (guard 1 holds, guards 2 and 3 fail).

  The body reads the tile of 512 points and the batch's whole second cloud, stores the square roots of the tile's row
  minima into the first output's buffer, and stores the tile's column minima into the running-minimum buffer, whatever
  that buffer held before. The run records what each output buffer ends with as the list of pieces stored into it.
-/
import proofs.«179750_j19164144075465_2_alg».proof.Proof.Kernel.Cases
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a first row tile: from the two input buffers at `x0`, `x1` and the two output buffers at anything, it
    runs to the end with the inputs as they were and each output buffer holding the pieces stored into it. -/
noncomputable def runFirst (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) :
    { L : List (View.Piece (Elt F) S1x512x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    dsimp only
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.Kernel.RunMid.lean ====
/-
  The kernel body at a MIDDLE row tile of a batch (guard 2 holds, guards 1 and 3 fail).

  The body stores the square roots of the tile's row minima into the first output's buffer and replaces the
  running-minimum buffer by its entrywise minimum with the tile's column minima.
-/
import proofs.«179750_j19164144075465_2_alg».proof.Proof.Kernel.Cases
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle row tile: from the two input buffers at `x0`, `x1`, the first output buffer at anything and the
    running-minimum buffer at `xo`, it runs to the end with the inputs as they were and each output buffer holding the
    pieces stored into it. -/
noncomputable def runMid (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) :
    { L : List (View.Piece (Elt F) S1x512x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    dsimp only
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.Kernel.RunLast.lean ====
/-
  The kernel body at the LAST row tile of a batch (guards 2 and 3 hold, guard 1 fails).

  The body stores the square roots of the tile's row minima into the first output's buffer, replaces the
  running-minimum buffer by its entrywise minimum with the tile's column minima, reads that back and stores its
  entrywise square root in its place.
-/
import proofs.«179750_j19164144075465_2_alg».proof.Proof.Kernel.Cases
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at the last row tile: from the two input buffers at `x0`, `x1`, the first output buffer at anything and the
    running-minimum buffer at `xo`, it runs to the end with the inputs as they were and each output buffer holding the
    pieces stored into it. -/
noncomputable def runLast (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) :
    { L : List (View.Piece (Elt F) S1x512x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    dsimp only
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.Kernel.Left.lean ====
/-
  What each case of the body leaves in the two output buffers, as values.

  Every store of the body covers its whole buffer, so a buffer ends at the payload of the last store into it:
  the first output's buffer at the square roots of the tile's row minima in every case; the running-minimum buffer at
  the tile's column minima (first tile), at their entrywise minimum with what it held (middle tile), and at the
  entrywise square root of that minimum (last tile).
-/
import proofs.«179750_j19164144075465_2_alg».proof.Proof.Kernel.RunFirst
import proofs.«179750_j19164144075465_2_alg».proof.Proof.Kernel.RunMid
import proofs.«179750_j19164144075465_2_alg».proof.Proof.Kernel.RunLast
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zero3 : (![0, 0, 0] : Fin 3 → Nat) = fun _ => 0 := funext fun a => by fin_cases a <;> rfl

/-! ## The pieces of each case cover their buffers -/

theorem coverFirst2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (y : S1x512x1.Idx) :
    ∃ pc ∈ (runFirst c i arg2 harg2 arg3 harg3 arg4 harg4 arg5 harg5 h1 h2 h3 x0 x1).1.1, y ∈ pc.1.set :=
  View.cover_of_tiledL _ S1x512x1.size (by sl_kernel_rfl) y

theorem coverFirst3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (y : S1x1x4096.Idx) :
    ∃ pc ∈ (runFirst c i arg2 harg2 arg3 harg3 arg4 harg4 arg5 harg5 h1 h2 h3 x0 x1).1.2, y ∈ pc.1.set :=
  View.cover_of_tiledL _ S1x1x4096.size (by sl_kernel_rfl) y

theorem coverMid2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (y : S1x512x1.Idx) :
    ∃ pc ∈ (runMid c i arg2 harg2 arg3 harg3 arg4 harg4 arg5 harg5 h1 h2 h3 x0 x1 xo).1.1, y ∈ pc.1.set :=
  View.cover_of_tiledL _ S1x512x1.size (by sl_kernel_rfl) y

theorem coverMid3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (y : S1x1x4096.Idx) :
    ∃ pc ∈ (runMid c i arg2 harg2 arg3 harg3 arg4 harg4 arg5 harg5 h1 h2 h3 x0 x1 xo).1.2, y ∈ pc.1.set :=
  View.cover_of_tiledL _ S1x1x4096.size (by sl_kernel_rfl) y

theorem coverLast2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (y : S1x512x1.Idx) :
    ∃ pc ∈ (runLast c i arg2 harg2 arg3 harg3 arg4 harg4 arg5 harg5 h1 h2 h3 x0 x1 xo).1.1, y ∈ pc.1.set :=
  View.cover_of_tiledL _ S1x512x1.size (by sl_kernel_rfl) y

theorem coverLast3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (y : S1x1x4096.Idx) :
    ∃ pc ∈ (runLast c i arg2 harg2 arg3 harg3 arg4 harg4 arg5 harg5 h1 h2 h3 x0 x1 xo).1.2, y ∈ pc.1.set :=
  View.cover_of_tiledL _ S1x1x4096.size (by sl_kernel_rfl) y

/-! ## What the pieces read back to -/

/-- First tile, first output: the square roots of the tile's row minima. -/
theorem leftFirst2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (f : arg4.view.ty.Contents (Elt F)) :
    arg4.view.read (Elt F) (arg4.view.writes (Elt F) f (runFirst c i arg2 harg2 arg3 harg3 arg4 harg4 arg5 harg5 h1 h2 h3 x0 x1).1.1)
      = k0_pay4 x0 x1 := by
  rw [View.read_writes_eq_canon _ _ _ (coverFirst2 c i arg2 harg2 arg3 harg3 arg4 harg4 arg5 harg5 h1 h2 h3 x0 x1)]
  unfold runFirst
  dsimp only
  rw [View.canon_unit_zero zero3]
  simp only [View.readAt_eq_ld, harg2.read_unread, harg3.read_unread, View.ld_unit_zero (S := S1x512x3) zero3,
    View.ld_unit_zero (S := S1x3x4096) zero3]

/-- First tile, running minimum: the tile's column minima. -/
theorem leftFirst3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (f : arg5.view.ty.Contents (Elt F)) :
    arg5.view.read (Elt F) (arg5.view.writes (Elt F) f (runFirst c i arg2 harg2 arg3 harg3 arg4 harg4 arg5 harg5 h1 h2 h3 x0 x1).1.2)
      = k0_pay5 x0 x1 := by
  rw [View.read_writes_eq_canon _ _ _ (coverFirst3 c i arg2 harg2 arg3 harg3 arg4 harg4 arg5 harg5 h1 h2 h3 x0 x1)]
  unfold runFirst
  dsimp only
  rw [View.canon_unit_zero zero3]
  simp only [View.readAt_eq_ld, harg2.read_unread, harg3.read_unread, View.ld_unit_zero (S := S1x512x3) zero3,
    View.ld_unit_zero (S := S1x3x4096) zero3]

/-- Middle tile, first output: the square roots of the tile's row minima. -/
theorem leftMid2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (f : arg4.view.ty.Contents (Elt F)) :
    arg4.view.read (Elt F) (arg4.view.writes (Elt F) f (runMid c i arg2 harg2 arg3 harg3 arg4 harg4 arg5 harg5 h1 h2 h3 x0 x1 xo).1.1)
      = k0_pay4 x0 x1 := by
  rw [View.read_writes_eq_canon _ _ _ (coverMid2 c i arg2 harg2 arg3 harg3 arg4 harg4 arg5 harg5 h1 h2 h3 x0 x1 xo)]
  unfold runMid
  dsimp only
  rw [View.canon_unit_zero zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

/-- Middle tile, running minimum: the entrywise minimum of what the buffer held and the tile's column minima. -/
theorem leftMid3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (f : arg5.view.ty.Contents (Elt F)) :
    arg5.view.read (Elt F) (arg5.view.writes (Elt F) f (runMid c i arg2 harg2 arg3 harg3 arg4 harg4 arg5 harg5 h1 h2 h3 x0 x1 xo).1.2)
      = k0_pay6 x0 x1 xo := by
  rw [View.read_writes_eq_canon _ _ _ (coverMid3 c i arg2 harg2 arg3 harg3 arg4 harg4 arg5 harg5 h1 h2 h3 x0 x1 xo)]
  unfold runMid
  dsimp only
  rw [View.canon_unit_zero zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

/-- Last tile, first output: the square roots of the tile's row minima. -/
theorem leftLast2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (f : arg4.view.ty.Contents (Elt F)) :
    arg4.view.read (Elt F) (arg4.view.writes (Elt F) f (runLast c i arg2 harg2 arg3 harg3 arg4 harg4 arg5 harg5 h1 h2 h3 x0 x1 xo).1.1)
      = k0_pay4 x0 x1 := by
  rw [View.read_writes_eq_canon _ _ _ (coverLast2 c i arg2 harg2 arg3 harg3 arg4 harg4 arg5 harg5 h1 h2 h3 x0 x1 xo)]
  unfold runLast
  dsimp only
  rw [View.canon_unit_zero zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

/-- Last tile, running minimum: the entrywise square root of the minimum of what the buffer held and the tile's
    column minima (the second store's payload reads back the first store's). -/
theorem leftLast3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (f : arg5.view.ty.Contents (Elt F)) :
    arg5.view.read (Elt F) (arg5.view.writes (Elt F) f (runLast c i arg2 harg2 arg3 harg3 arg4 harg4 arg5 harg5 h1 h2 h3 x0 x1 xo).1.2)
      = k0_pay1 (k0_pay6 x0 x1 xo) := by
  rw [View.read_writes_eq_canon _ _ _ (coverLast3 c i arg2 harg2 arg3 harg3 arg4 harg4 arg5 harg5 h1 h2 h3 x0 x1 xo)]
  unfold runLast
  dsimp only
  sl_unfold_words
  rw [View.canon_cons_unit_zero (S := S1x1x4096) zero3, View.readCov_unit_zero (S := S1x1x4096) _ zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

end Cert.Kernel.Body

end
-- ==== Proof.Kernel.Data.lean ====
/-
  The pipeline's proof data.

  After the body at point `t` the two input buffers still hold the point's blocks; the first output's buffer holds the
  square roots of the tile's row minima; the running-minimum buffer holds `acc t`: the tile's column minima at the
  first tile of a batch, its minimum with what the point before left at a later tile, and the square root of that at
  the last tile. The running-minimum buffer is written back only after a batch's last tile, so at every later tile of
  a batch the body finds in it what the point before left.
-/
import proofs.«179750_j19164144075465_2_alg».proof.Proof.Kernel.Left
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## The running column minimum -/

/-- What the running-minimum buffer holds after the body at position `n`. -/
def acc (c : Dev nD) : (n : ℕ) → n < cfg0.N → Vec F S1x1x4096 .f32
  | 0, hn => k0_pay5 (iblk m c 0 ⟨0, hn⟩) (iblk m c 1 ⟨0, hn⟩)
  | n + 1, hn =>
    if h0 : (n + 1) % 8 = 0 then
      k0_pay5 (iblk m c 0 ⟨n + 1, hn⟩) (iblk m c 1 ⟨n + 1, hn⟩)
    else if h7 : (n + 1) % 8 = 7 then
      k0_pay1 (k0_pay6 (iblk m c 0 ⟨n + 1, hn⟩) (iblk m c 1 ⟨n + 1, hn⟩) (acc c n (Nat.lt_of_succ_lt hn)))
    else
      k0_pay6 (iblk m c 0 ⟨n + 1, hn⟩) (iblk m c 1 ⟨n + 1, hn⟩) (acc c n (Nat.lt_of_succ_lt hn))

/-- At the first tile of a batch: the tile's column minima. -/
theorem acc_first (c : Dev nD) (t : Fin cfg0.N) (h0 : t.val % 8 = 0) :
    acc m c t.val t.isLt = k0_pay5 (iblk m c 0 t) (iblk m c 1 t) := by
  obtain ⟨n, hn⟩ := t
  cases n with
  | zero => exact rfl
  | succ n => exact (dif_pos h0).trans rfl

/-- At a middle tile: the minimum with what the point before left. -/
theorem acc_mid (c : Dev nD) (t : Fin cfg0.N) (h0 : ¬t.val % 8 = 0) (h7 : ¬t.val % 8 = 7) :
    acc m c t.val t.isLt = k0_pay6 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact ((dif_neg h0).trans (dif_neg h7)).trans rfl

/-- At the last tile: the square root of that minimum. -/
theorem acc_last (c : Dev nD) (t : Fin cfg0.N) (h7 : t.val % 8 = 7) :
    acc m c t.val t.isLt = k0_pay1 (k0_pay6 (iblk m c 0 t) (iblk m c 1 t) (acc m c (t.val - 1) (Nat.lt_of_le_of_lt (Nat.sub_le _ _) t.isLt))) := by
  obtain ⟨n, hn⟩ := t
  cases n with
  | zero => exact absurd h7 (by dsimp only; omega)
  | succ n =>
    have h0 : ¬(n + 1) % 8 = 0 := by dsimp only at h7; omega
    exact ((dif_neg h0).trans (dif_pos h7)).trans rfl

/-! ## The proof data -/

/-- The proof data of the pipeline on core `c`: the arrays as the region finds them; after the body at point `t` each
    input's buffer at its block, the first output's at the tile's row distances, the second's at the running column
    minimum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (iblk m c 0 t) (iblk m c 1 t)
    | ⟨3, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay4 (iblk m c 0 t) (iblk m c 1 t) := by dsimp only [dats]
theorem after3 (c : Dev nD) (t : Fin cfg0.N) : (dats m 0 c).after 3 t = acc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile of a batch the running-minimum buffer holds what the body left at the point before: the buffer
    was not written back between (it is written back after a batch's last tile only), and the window is never idle. -/
theorem before3_kept (c : Dev nD) (t : Fin cfg0.N) (h0 : ¬t.val % 8 = 0) (d) :
    (dats m 0 c).before 3 t d = acc m c (t.val - 1) (Nat.lt_of_le_of_lt (Nat.sub_le _ _) t.isLt) := by
  have hN : t.val < 128 := lt_of_lt_of_eq t.isLt N_eq
  rw [Dat.before_out_kept _ 3 rfl t (by omega) (Bool.eq_false_iff.mpr fun h => by have := (flush0_3 _).mp h; dsimp only at this; omega)
    live3 (fun _ _ => rfl)]
  dsimp only [dats]

end Cert.Kernel.Body

end
-- ==== Proof.Kernel.Oblig.lean ====
/-
  The body obligation at every point, the run of the whole program, and its frame.

  At each point the point's residue modulo 8 selects one of the body's three cases; that case's run applies to the
  buffers as the proof data says the body finds them, and leaves them as the proof data says. With the obligation the
  library's launch theorem runs the program: the host line before the region, the region, the host lines after it.
-/
import proofs.«179750_j19164144075465_2_alg».proof.Proof.Kernel.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; the point's residue modulo 8 says which of the three
    cases it is; at a later tile the running-minimum buffer holds what the point before left; so that case's run
    applies, and what it leaves is what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt N_eq
  by_cases h0 : t.val % 8 = 0
  · have g1 : k0_cond1 (grid0.coords t) = 1#1 := (guard1_iff t).mpr h0
    have g2 : ¬k0_cond2 (grid0.coords t) = 1#1 := fun h => (guard2_iff t).mp h h0
    have g3 : ¬k0_cond3 (grid0.coords t) = 1#1 := fun h => by have := (guard3_iff t).mp h; omega
    rw [acc_first m c t h0]
    iintro ⟨HΦ, Ho, ⟨%d0, H0⟩, ⟨%d1, H1⟩, ⟨%d2, H2⟩, ⟨%d3, H3⟩⟩
    iapply ((runFirst c (grid0.coords t) _ _ _ _ _ _ _ _ g1 g2 g3 (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact leftFirst2 c _ _ _ _ _ _ _ _ _ g1 g2 g3 _ _ _
    unfold owns; iexists _; isplitr
    swap; · iexact H3
    ipureintro; exact leftFirst3 c _ _ _ _ _ _ _ _ _ g1 g2 g3 _ _ _
  · have g1 : ¬k0_cond1 (grid0.coords t) = 1#1 := fun h => h0 ((guard1_iff t).mp h)
    have g2 : k0_cond2 (grid0.coords t) = 1#1 := (guard2_iff t).mpr h0
    simp only [before3_kept m c t h0]
    by_cases h7 : t.val % 8 = 7
    · have g3 : k0_cond3 (grid0.coords t) = 1#1 := (guard3_iff t).mpr h7
      rw [acc_last m c t h7]
      iintro ⟨HΦ, Ho, ⟨%d0, H0⟩, ⟨%d1, H1⟩, ⟨%d2, H2⟩, ⟨%d3, H3⟩⟩
      iapply ((runLast c (grid0.coords t) _ _ _ _ _ _ _ _ g1 g2 g3 (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact leftLast2 c _ _ _ _ _ _ _ _ _ g1 g2 g3 _ _ _ _
      unfold owns; iexists _; isplitr
      swap; · iexact H3
      ipureintro; exact leftLast3 c _ _ _ _ _ _ _ _ _ g1 g2 g3 _ _ _ _
    · have g3 : ¬k0_cond3 (grid0.coords t) = 1#1 := fun h => h7 ((guard3_iff t).mp h)
      rw [acc_mid m c t h0 h7]
      iintro ⟨HΦ, Ho, ⟨%d0, H0⟩, ⟨%d1, H1⟩, ⟨%d2, H2⟩, ⟨%d3, H3⟩⟩
      iapply ((runMid c (grid0.coords t) _ _ _ _ _ _ _ _ g1 g2 g3 (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact leftMid2 c _ _ _ _ _ _ _ _ _ g1 g2 g3 _ _ _ _
      unfold owns; iexists _; isplitr
      swap; · iexact H3
      ipureintro; exact leftMid3 c _ _ _ _ _ _ _ _ _ g1 g2 g3 _ _ _ _

/-- The library's body obligation, at every point: the running-minimum window is never idle, and with that said the
    obligation is the statement above. -/
theorem body_obligation (c : Dev nD) : BodyObligation (dats (F := F) m 0 c) (defs₀ (F := F)) Variants.none () Set.univ := fun t => by
  rw [bigSep_W0, bigSep_W0]
  rw [show cfg0.idle 3 (cfg0.grid.coords t) = false from live3 _]
  exact sound_body m c t

/-! ## The run and the frame -/

set_option backward.isDefEq.respectTransparency.types false in
/-- From any memory with zero counters every weakly fair execution of the program terminates, and every final state has
    every array of the pipeline at what the library computes from the proof data and every other unscoped buffer as the
    lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Cases.lean ====
/-
  The three guards of the kernel body, decided over the grid.

  The grid is 16 batches by 8 row tiles, visited batch-major, so point `t` is row tile `t % 8` of batch `t / 8`.
  The body stores the tile's column minima into the running-minimum buffer at the first tile of a batch (guard 1),
  folds them into it at every later tile (guard 2), and takes the square root of the buffer at the last tile
  (guard 3). One of the first two guards holds at every point, so the running-minimum window is stored at every point.
-/
import proofs.«179750_j19164144075465_2_alg».proof.Proof.Gen.KernelIdeal.Frame
import proofs.«179750_j19164144075465_2_alg».proof.Proof.Gen.KernelIdeal.Skeleton

set_option maxRecDepth 16384

noncomputable section

namespace Cert.KernelIdeal.Body

open Idealize.ShloMosaic Idealize.ShloMosaic.TcCoe
open Idealize.SL Idealize.SL.Sem
open Cert.KernelIdeal Cert.KernelIdeal.Gen

/-- The grid has 128 points. -/
theorem N_eq : cfg0.N = 128 := N_0

/-- Guard 1 (first row tile of a batch) holds exactly at the points ≡ 0 (mod 8). -/
theorem guard1_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- Guard 2 (a later row tile) holds exactly at the points ≢ 0 (mod 8). -/
theorem guard2_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- Guard 3 (last row tile of a batch) holds exactly at the points ≡ 7 (mod 8). -/
theorem guard3_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate one of the first two guards holds: the running-minimum window is never idle. -/
theorem live3 : ∀ i : grid0.Coords, cfg0.idle 3 i = false :=
  (by decide +kernel : ∀ i : grid0.Coords, idle0 3 i = false)

end Cert.KernelIdeal.Body

end
-- ==== Proof.KernelIdeal.RunFirst.lean ====
/-
  The kernel body at the FIRST row tile of a batch (guard 1 holds, guards 2 and 3 fail).

  The body reads the tile of 512 points and the batch's whole second cloud, stores the square roots of the tile's row
  minima into the first output's buffer, and stores the tile's column minima into the running-minimum buffer, whatever
  that buffer held before. The run records what each output buffer ends with as the list of pieces stored into it.
-/
import proofs.«179750_j19164144075465_2_alg».proof.Proof.KernelIdeal.Cases
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a first row tile: from the two input buffers at `x0`, `x1` and the two output buffers at anything, it
    runs to the end with the inputs as they were and each output buffer holding the pieces stored into it. -/
noncomputable def runFirst (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) :
    { L : List (View.Piece (Elt F) S1x512x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    dsimp only
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KernelIdeal.RunMid.lean ====
/-
  The kernel body at a MIDDLE row tile of a batch (guard 2 holds, guards 1 and 3 fail).

  The body stores the square roots of the tile's row minima into the first output's buffer and replaces the
  running-minimum buffer by its entrywise minimum with the tile's column minima.
-/
import proofs.«179750_j19164144075465_2_alg».proof.Proof.KernelIdeal.Cases
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle row tile: from the two input buffers at `x0`, `x1`, the first output buffer at anything and the
    running-minimum buffer at `xo`, it runs to the end with the inputs as they were and each output buffer holding the
    pieces stored into it. -/
noncomputable def runMid (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) :
    { L : List (View.Piece (Elt F) S1x512x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    dsimp only
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KernelIdeal.RunLast.lean ====
/-
  The kernel body at the LAST row tile of a batch (guards 2 and 3 hold, guard 1 fails).

  The body stores the square roots of the tile's row minima into the first output's buffer, replaces the
  running-minimum buffer by its entrywise minimum with the tile's column minima, reads that back and stores its
  entrywise square root in its place.
-/
import proofs.«179750_j19164144075465_2_alg».proof.Proof.KernelIdeal.Cases
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last row tile: from the two input buffers at `x0`, `x1`, the first output buffer at anything and the
    running-minimum buffer at `xo`, it runs to the end with the inputs as they were and each output buffer holding the
    pieces stored into it. -/
noncomputable def runLast (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) :
    { L : List (View.Piece (Elt F) S1x512x1 .f32) × List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    dsimp only
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KernelIdeal.Left.lean ====
/-
  What each case of the body leaves in the two output buffers, as values.

  Every store of the body covers its whole buffer, so a buffer ends at the payload of the last store into it:
  the first output's buffer at the square roots of the tile's row minima in every case; the running-minimum buffer at
  the tile's column minima (first tile), at their entrywise minimum with what it held (middle tile), and at the
  entrywise square root of that minimum (last tile).
-/
import proofs.«179750_j19164144075465_2_alg».proof.Proof.KernelIdeal.RunFirst
import proofs.«179750_j19164144075465_2_alg».proof.Proof.KernelIdeal.RunMid
import proofs.«179750_j19164144075465_2_alg».proof.Proof.KernelIdeal.RunLast
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero3 : (![0, 0, 0] : Fin 3 → Nat) = fun _ => 0 := funext fun a => by fin_cases a <;> rfl

/-! ## The pieces of each case cover their buffers -/

theorem coverFirst2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (y : S1x512x1.Idx) :
    ∃ pc ∈ (runFirst c i arg2 harg2 arg3 harg3 arg4 harg4 arg5 harg5 h1 h2 h3 x0 x1).1.1, y ∈ pc.1.set :=
  View.cover_of_tiledL _ S1x512x1.size (by sl_kernel_rfl) y

theorem coverFirst3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (y : S1x1x4096.Idx) :
    ∃ pc ∈ (runFirst c i arg2 harg2 arg3 harg3 arg4 harg4 arg5 harg5 h1 h2 h3 x0 x1).1.2, y ∈ pc.1.set :=
  View.cover_of_tiledL _ S1x1x4096.size (by sl_kernel_rfl) y

theorem coverMid2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (y : S1x512x1.Idx) :
    ∃ pc ∈ (runMid c i arg2 harg2 arg3 harg3 arg4 harg4 arg5 harg5 h1 h2 h3 x0 x1 xo).1.1, y ∈ pc.1.set :=
  View.cover_of_tiledL _ S1x512x1.size (by sl_kernel_rfl) y

theorem coverMid3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (y : S1x1x4096.Idx) :
    ∃ pc ∈ (runMid c i arg2 harg2 arg3 harg3 arg4 harg4 arg5 harg5 h1 h2 h3 x0 x1 xo).1.2, y ∈ pc.1.set :=
  View.cover_of_tiledL _ S1x1x4096.size (by sl_kernel_rfl) y

theorem coverLast2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (y : S1x512x1.Idx) :
    ∃ pc ∈ (runLast c i arg2 harg2 arg3 harg3 arg4 harg4 arg5 harg5 h1 h2 h3 x0 x1 xo).1.1, y ∈ pc.1.set :=
  View.cover_of_tiledL _ S1x512x1.size (by sl_kernel_rfl) y

theorem coverLast3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (y : S1x1x4096.Idx) :
    ∃ pc ∈ (runLast c i arg2 harg2 arg3 harg3 arg4 harg4 arg5 harg5 h1 h2 h3 x0 x1 xo).1.2, y ∈ pc.1.set :=
  View.cover_of_tiledL _ S1x1x4096.size (by sl_kernel_rfl) y

/-! ## What the pieces read back to -/

/-- First tile, first output: the square roots of the tile's row minima. -/
theorem leftFirst2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (f : arg4.view.ty.Contents (Elt F)) :
    arg4.view.read (Elt F) (arg4.view.writes (Elt F) f (runFirst c i arg2 harg2 arg3 harg3 arg4 harg4 arg5 harg5 h1 h2 h3 x0 x1).1.1)
      = k0_pay4 x0 x1 := by
  rw [View.read_writes_eq_canon _ _ _ (coverFirst2 c i arg2 harg2 arg3 harg3 arg4 harg4 arg5 harg5 h1 h2 h3 x0 x1)]
  unfold runFirst
  dsimp only
  rw [View.canon_unit_zero zero3]
  simp only [View.readAt_eq_ld, harg2.read_unread, harg3.read_unread, View.ld_unit_zero (S := S1x512x3) zero3,
    View.ld_unit_zero (S := S1x3x4096) zero3]

/-- First tile, running minimum: the tile's column minima. -/
theorem leftFirst3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : k0_cond1 i = 1#1) (h2 : ¬k0_cond2 i = 1#1) (h3 : ¬k0_cond3 i = 1#1)
    (x0 : Vec F S1x512x3 .f32) (x1 : Vec F S1x3x4096 .f32) (f : arg5.view.ty.Contents (Elt F)) :
    arg5.view.read (Elt F) (arg5.view.writes (Elt F) f (runFirst c i arg2 harg2 arg3 harg3 arg4 harg4 arg5 harg5 h1 h2 h3 x0 x1).1.2)
      = k0_pay5 x0 x1 := by
  rw [View.read_writes_eq_canon _ _ _ (coverFirst3 c i arg2 harg2 arg3 harg3 arg4 harg4 arg5 harg5 h1 h2 h3 x0 x1)]
  unfold runFirst
  dsimp only
  rw [View.canon_unit_zero zero3]
  simp only [View.readAt_eq_ld, harg2.read_unread, harg3.read_unread, View.ld_unit_zero (S := S1x512x3) zero3,
    View.ld_unit_zero (S := S1x3x4096) zero3]

/-- Middle tile, first output: the square roots of the tile's row minima. -/
theorem leftMid2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (f : arg4.view.ty.Contents (Elt F)) :
    arg4.view.read (Elt F) (arg4.view.writes (Elt F) f (runMid c i arg2 harg2 arg3 harg3 arg4 harg4 arg5 harg5 h1 h2 h3 x0 x1 xo).1.1)
      = k0_pay4 x0 x1 := by
  rw [View.read_writes_eq_canon _ _ _ (coverMid2 c i arg2 harg2 arg3 harg3 arg4 harg4 arg5 harg5 h1 h2 h3 x0 x1 xo)]
  unfold runMid
  dsimp only
  rw [View.canon_unit_zero zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

/-- Middle tile, running minimum: the entrywise minimum of what the buffer held and the tile's column minima. -/
theorem leftMid3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : ¬k0_cond3 i = 1#1)
    (x0 : Vec F S1x512x3 .f32) (x1 : Vec F S1x3x4096 .f32) (xo : Vec F S1x1x4096 .f32) (f : arg5.view.ty.Contents (Elt F)) :
    arg5.view.read (Elt F) (arg5.view.writes (Elt F) f (runMid c i arg2 harg2 arg3 harg3 arg4 harg4 arg5 harg5 h1 h2 h3 x0 x1 xo).1.2)
      = k0_pay6 x0 x1 xo := by
  rw [View.read_writes_eq_canon _ _ _ (coverMid3 c i arg2 harg2 arg3 harg3 arg4 harg4 arg5 harg5 h1 h2 h3 x0 x1 xo)]
  unfold runMid
  dsimp only
  rw [View.canon_unit_zero zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

/-- Last tile, first output: the square roots of the tile's row minima. -/
theorem leftLast2 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (f : arg4.view.ty.Contents (Elt F)) :
    arg4.view.read (Elt F) (arg4.view.writes (Elt F) f (runLast c i arg2 harg2 arg3 harg3 arg4 harg4 arg5 harg5 h1 h2 h3 x0 x1 xo).1.1)
      = k0_pay4 x0 x1 := by
  rw [View.read_writes_eq_canon _ _ _ (coverLast2 c i arg2 harg2 arg3 harg3 arg4 harg4 arg5 harg5 h1 h2 h3 x0 x1 xo)]
  unfold runLast
  dsimp only
  rw [View.canon_unit_zero zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

/-- Last tile, running minimum: the entrywise square root of the minimum of what the buffer held and the tile's
    column minima (the second store's payload reads back the first store's). -/
theorem leftLast3 (c : Dev nD) (i : grid0.Coords)
    (arg2 : Memref sig .tc .vmem S1x512x3 .f32) (harg2 : arg2.IsWhole) (arg3 : Memref sig .tc .vmem S1x3x4096 .f32) (harg3 : arg3.IsWhole)
    (arg4 : Memref sig .tc .vmem S1x512x1 .f32) (harg4 : arg4.IsWhole) (arg5 : Memref sig .tc .vmem S1x1x4096 .f32) (harg5 : arg5.IsWhole)
    (h1 : ¬k0_cond1 i = 1#1) (h2 : k0_cond2 i = 1#1) (h3 : k0_cond3 i = 1#1)
    (x0 : Vec F S1x512x3 .f32) (x1 : Vec F S1x3x4096 .f32) (xo : Vec F S1x1x4096 .f32) (f : arg5.view.ty.Contents (Elt F)) :
    arg5.view.read (Elt F) (arg5.view.writes (Elt F) f (runLast c i arg2 harg2 arg3 harg3 arg4 harg4 arg5 harg5 h1 h2 h3 x0 x1 xo).1.2)
      = k0_pay1 (k0_pay6 x0 x1 xo) := by
  rw [View.read_writes_eq_canon _ _ _ (coverLast3 c i arg2 harg2 arg3 harg3 arg4 harg4 arg5 harg5 h1 h2 h3 x0 x1 xo)]
  unfold runLast
  dsimp only
  sl_unfold_words
  rw [View.canon_cons_unit_zero (S := S1x1x4096) zero3, View.readCov_unit_zero (S := S1x1x4096) _ zero3]
  simp only [View.readAt_eq_ld, harg2.read_unread, harg3.read_unread, harg5.read_unread, View.ld_unit_zero (S := S1x512x3) zero3,
    View.ld_unit_zero (S := S1x3x4096) zero3, View.ld_unit_zero (S := S1x1x4096) zero3]

end Cert.KernelIdeal.Body

end
-- ==== Proof.KernelIdeal.Data.lean ====
/-
  The pipeline's proof data.

  After the body at point `t` the two input buffers still hold the point's blocks; the first output's buffer holds the
  square roots of the tile's row minima; the running-minimum buffer holds `acc t`: the tile's column minima at the
  first tile of a batch, its minimum with what the point before left at a later tile, and the square root of that at
  the last tile. The running-minimum buffer is written back only after a batch's last tile, so at every later tile of
  a batch the body finds in it what the point before left.
-/
import proofs.«179750_j19164144075465_2_alg».proof.Proof.KernelIdeal.Left
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## The running column minimum -/

/-- What the running-minimum buffer holds after the body at position `n`. -/
def acc (c : Dev nD) : (n : ℕ) → n < cfg0.N → Vec F S1x1x4096 .f32
  | 0, hn => k0_pay5 (iblk m c 0 ⟨0, hn⟩) (iblk m c 1 ⟨0, hn⟩)
  | n + 1, hn =>
    if h0 : (n + 1) % 8 = 0 then
      k0_pay5 (iblk m c 0 ⟨n + 1, hn⟩) (iblk m c 1 ⟨n + 1, hn⟩)
    else if h7 : (n + 1) % 8 = 7 then
      k0_pay1 (k0_pay6 (iblk m c 0 ⟨n + 1, hn⟩) (iblk m c 1 ⟨n + 1, hn⟩) (acc c n (Nat.lt_of_succ_lt hn)))
    else
      k0_pay6 (iblk m c 0 ⟨n + 1, hn⟩) (iblk m c 1 ⟨n + 1, hn⟩) (acc c n (Nat.lt_of_succ_lt hn))

/-- At the first tile of a batch: the tile's column minima. -/
theorem acc_first (c : Dev nD) (t : Fin cfg0.N) (h0 : t.val % 8 = 0) :
    acc m c t.val t.isLt = k0_pay5 (iblk m c 0 t) (iblk m c 1 t) := by
  obtain ⟨n, hn⟩ := t
  cases n with
  | zero => exact rfl
  | succ n => exact (dif_pos h0).trans rfl

/-- At a middle tile: the minimum with what the point before left. -/
theorem acc_mid (c : Dev nD) (t : Fin cfg0.N) (h0 : ¬t.val % 8 = 0) (h7 : ¬t.val % 8 = 7) :
    acc m c t.val t.isLt = k0_pay6 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact ((dif_neg h0).trans (dif_neg h7)).trans rfl

/-- At the last tile: the square root of that minimum. -/
theorem acc_last (c : Dev nD) (t : Fin cfg0.N) (h7 : t.val % 8 = 7) :
    acc m c t.val t.isLt = k0_pay1 (k0_pay6 (iblk m c 0 t) (iblk m c 1 t) (acc m c (t.val - 1) (Nat.lt_of_le_of_lt (Nat.sub_le _ _) t.isLt))) := by
  obtain ⟨n, hn⟩ := t
  cases n with
  | zero => exact absurd h7 (by dsimp only; omega)
  | succ n =>
    have h0 : ¬(n + 1) % 8 = 0 := by dsimp only at h7; omega
    exact ((dif_neg h0).trans (dif_pos h7)).trans rfl

/-! ## The proof data -/

/-- The proof data of the pipeline on core `c`: the arrays as the region finds them; after the body at point `t` each
    input's buffer at its block, the first output's at the tile's row distances, the second's at the running column
    minimum; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (iblk m c 0 t) (iblk m c 1 t)
    | ⟨3, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay4 (iblk m c 0 t) (iblk m c 1 t) := by dsimp only [dats]
theorem after3 (c : Dev nD) (t : Fin cfg0.N) : (dats m 0 c).after 3 t = acc m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile of a batch the running-minimum buffer holds what the body left at the point before: the buffer
    was not written back between (it is written back after a batch's last tile only), and the window is never idle. -/
theorem before3_kept (c : Dev nD) (t : Fin cfg0.N) (h0 : ¬t.val % 8 = 0) (d) :
    (dats m 0 c).before 3 t d = acc m c (t.val - 1) (Nat.lt_of_le_of_lt (Nat.sub_le _ _) t.isLt) := by
  have hN : t.val < 128 := lt_of_lt_of_eq t.isLt N_eq
  rw [Dat.before_out_kept _ 3 rfl t (by omega) (Bool.eq_false_iff.mpr fun h => by have := (flush0_3 _).mp h; dsimp only at this; omega)
    live3 (fun _ _ => rfl)]
  dsimp only [dats]

end Cert.KernelIdeal.Body

end
-- ==== Proof.KernelIdeal.Oblig.lean ====
/-
  The body obligation at every point, the run of the whole program, and its frame.

  At each point the point's residue modulo 8 selects one of the body's three cases; that case's run applies to the
  buffers as the proof data says the body finds them, and leaves them as the proof data says. With the obligation the
  library's launch theorem runs the program: the host line before the region, the region, the host lines after it.
-/
import proofs.«179750_j19164144075465_2_alg».proof.Proof.KernelIdeal.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; the point's residue modulo 8 says which of the three
    cases it is; at a later tile the running-minimum buffer holds what the point before left; so that case's run
    applies, and what it leaves is what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt N_eq
  by_cases h0 : t.val % 8 = 0
  · have g1 : k0_cond1 (grid0.coords t) = 1#1 := (guard1_iff t).mpr h0
    have g2 : ¬k0_cond2 (grid0.coords t) = 1#1 := fun h => (guard2_iff t).mp h h0
    have g3 : ¬k0_cond3 (grid0.coords t) = 1#1 := fun h => by have := (guard3_iff t).mp h; omega
    rw [acc_first m c t h0]
    iintro ⟨HΦ, Ho, ⟨%d0, H0⟩, ⟨%d1, H1⟩, ⟨%d2, H2⟩, ⟨%d3, H3⟩⟩
    iapply ((runFirst c (grid0.coords t) _ _ _ _ _ _ _ _ g1 g2 g3 (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact leftFirst2 c _ _ _ _ _ _ _ _ _ g1 g2 g3 _ _ _
    unfold owns; iexists _; isplitr
    swap; · iexact H3
    ipureintro; exact leftFirst3 c _ _ _ _ _ _ _ _ _ g1 g2 g3 _ _ _
  · have g1 : ¬k0_cond1 (grid0.coords t) = 1#1 := fun h => h0 ((guard1_iff t).mp h)
    have g2 : k0_cond2 (grid0.coords t) = 1#1 := (guard2_iff t).mpr h0
    simp only [before3_kept m c t h0]
    by_cases h7 : t.val % 8 = 7
    · have g3 : k0_cond3 (grid0.coords t) = 1#1 := (guard3_iff t).mpr h7
      rw [acc_last m c t h7]
      iintro ⟨HΦ, Ho, ⟨%d0, H0⟩, ⟨%d1, H1⟩, ⟨%d2, H2⟩, ⟨%d3, H3⟩⟩
      iapply ((runLast c (grid0.coords t) _ _ _ _ _ _ _ _ g1 g2 g3 (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact leftLast2 c _ _ _ _ _ _ _ _ _ g1 g2 g3 _ _ _ _
      unfold owns; iexists _; isplitr
      swap; · iexact H3
      ipureintro; exact leftLast3 c _ _ _ _ _ _ _ _ _ g1 g2 g3 _ _ _ _
    · have g3 : ¬k0_cond3 (grid0.coords t) = 1#1 := fun h => h7 ((guard3_iff t).mp h)
      rw [acc_mid m c t h0 h7]
      iintro ⟨HΦ, Ho, ⟨%d0, H0⟩, ⟨%d1, H1⟩, ⟨%d2, H2⟩, ⟨%d3, H3⟩⟩
      iapply ((runMid c (grid0.coords t) _ _ _ _ _ _ _ _ g1 g2 g3 (iblk m c 0 t) (iblk m c 1 t) _).2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact leftMid2 c _ _ _ _ _ _ _ _ _ g1 g2 g3 _ _ _ _
      unfold owns; iexists _; isplitr
      swap; · iexact H3
      ipureintro; exact leftMid3 c _ _ _ _ _ _ _ _ _ g1 g2 g3 _ _ _ _

/-- The library's body obligation, at every point: the running-minimum window is never idle, and with that said the
    obligation is the statement above. -/
theorem body_obligation (c : Dev nD) : BodyObligation (dats (F := F) m 0 c) (defs₀ (F := F)) Variants.none () Set.univ := fun t => by
  rw [bigSep_W0, bigSep_W0]
  rw [show cfg0.idle 3 (cfg0.grid.coords t) = false from live3 _]
  exact sound_body m c t

/-! ## The run and the frame -/

set_option backward.isDefEq.respectTransparency.types false in
/-- From any memory with zero counters every weakly fair execution of the program terminates, and every final state has
    every array of the pipeline at what the library computes from the proof data and every other unscoped buffer as the
    lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The specification: nearest-neighbour distances between two clouds of points.

  A cloud is 16 batches of 4096 points in 3-space, with extended-real coordinates. `dsq a b p n q` is the squared distance
  between point `n` of cloud `a` and point `q` of cloud `b` in batch `p`, its three squares added first to last;
  `near1 a b p n` is the distance from point `n` of `a` to the nearest point of `b` (the least squared distance over `q`,
  then the square root), and `near2 a b p q` the distance from point `q` of `b` to the nearest point of `a`.
  A least value is the fold of `min` from the top element.
-/
import Idealize.ShloMosaic.PureOps.Ideal
import Idealize.ShloMosaic.Lib.ValueIdx

noncomputable section

namespace Cert.Chamfer

open Idealize.ShloMosaic Idealize.ShloMosaic.ValueIdx

/-- A cloud: 16 batches of 4096 points in 3-space. -/
abbrev Cloud : Type := (⟨3, ![16, 4096, 3]⟩ : Shape).Idx → EReal

/-- One coordinate's squared difference. -/
def sqd (a b : Cloud) (p : Fin 16) (n q : Fin 4096) (k : Fin 3) : EReal :=
  (a (ix3 p n k) - b (ix3 p q k)) * (a (ix3 p n k) - b (ix3 p q k))

/-- The squared distance between point `n` of `a` and point `q` of `b` in batch `p`. -/
def dsq (a b : Cloud) (p : Fin 16) (n q : Fin 4096) : EReal :=
  (sqd a b p n q 0 + sqd a b p n q 1) + sqd a b p n q 2

/-- The distance from point `n` of `a` to the nearest point of `b`. -/
def near1 (a b : Cloud) (p : Fin 16) (n : Fin 4096) : EReal :=
  Ideal.sqrt ((Finset.univ : Finset (Fin 4096)).fold min ⊤ fun q => dsq a b p n q)

/-- The distance from point `q` of `b` to the nearest point of `a`. -/
def near2 (a b : Cloud) (p : Fin 16) (q : Fin 4096) : EReal :=
  Ideal.sqrt ((Finset.univ : Finset (Fin 4096)).fold min ⊤ fun n => dsq a b p n q)

/-- Every coordinate of a cloud is a real number. -/
def AllReal (a : Cloud) : Prop := ∀ i, ∃ r : ℝ, a i = (r : EReal)

end Cert.Chamfer

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.BlocksDist.lean ====
/-
  The tile's squared distances read at an entry, at the exact (extended-real) values.

  Entry (p, q) of the distance block is the sum over the three coordinates k of the square of the difference between
  coordinate k of point p of the first cloud's tile and coordinate k of point q of the second cloud. The block is computed
  coordinate by coordinate: column k of the [512, 3] tile repeated along the rows, minus row k of the [3, 4096] transposed
  cloud repeated along the columns, squared, and the three squares added from the left.
-/
import proofs.«179750_j19164144075465_2_alg».proof.Proof.Gen.KernelIdeal.Skeleton
import Idealize.ShloMosaic.Lib.ValueLayout
import proofs.«179750_j19164144075465_2_alg».proof.Proof.LibLayout
import proofs.«179750_j19164144075465_2_alg».proof.Proof.LibColsCut
import proofs.«179750_j19164144075465_2_alg».proof.Proof.LibColsJoin

noncomputable section

namespace Cert.KernelIdeal.Blocks

open Idealize.ShloMosaic Idealize.ShloMosaic.ValueIdx Cert.KernelIdeal Cert.KernelIdeal.Gen

/-- Row `off` cut from a matrix of M rows and N columns (a unit-stride slice that keeps every column) is a one-row
    matrix whose entry (0, q) is entry (off, q) of the operand. -/
theorem slice_row {M N : ℕ} {α : Type} (off : ℕ) (x : (⟨2, ![M, N]⟩ : Shape).Idx → α)
    (h : (⟨2, ![M, N]⟩ : Shape).Slices ![off, 0] ⟨2, ![1, N]⟩) (u : Fin 1) (q : Fin N) (k : Fin M) (hk : k.val = off) :
    extractStridedSlice (⟨2, ![1, N]⟩ : Shape) ![off, 0] x h (ix2 u q) = x (ix2 k q) :=
  extractStridedSlice_apply ![off, 0] x h (ix2 u q) (ix2 k q) fun a => by
    match a with
    | ⟨0, _⟩ => show k.val = off + u.val; omega
    | ⟨1, _⟩ => show q.val = 0 + q.val; omega

variable (x0 : Vec Ideal S1x512x3 .f32) (x1 : Vec Ideal S1x3x4096 .f32) (p : Fin 512) (q : Fin 4096)

/-- Column k of the tile repeated along the rows reads, at (p, q), coordinate k of point p. -/
theorem col_read (off : ℕ) (k : Fin 3) (hk : k.val = off) (hc : S1x512x3.ShapeCasts S512x3)
    (h : S512x3.Slices ![0, off] S512x1) (hb : S512x1.Broadcasts S512x4096) :
    broadcastTo S512x4096 (extractStridedSlice S512x1 ![0, off] (shapeCast S512x3 x0 hc) h) hb (ix2 p q)
      = x0 (ix3 (0 : Fin 1) p k) := by
  refine (broadcastTo_a1_ab_apply _ hb p q).trans ?_
  refine (Cert.LibColsCut.slice_cols off _ h p (0 : Fin 1) k (by rw [hk]; rfl)).trans ?_
  exact shapeCast_1ab_ab_apply x0 hc p k

/-- Row k of the transposed cloud repeated along the columns reads, at (p, q), coordinate k of point q. -/
theorem row_read (off : ℕ) (k : Fin 3) (hk : k.val = off) (hc : S1x3x4096.ShapeCasts S3x4096)
    (h : S3x4096.Slices ![off, 0] S1x4096) (hb : S1x4096.Broadcasts S512x4096) :
    broadcastTo S512x4096 (extractStridedSlice S1x4096 ![off, 0] (shapeCast S3x4096 x1 hc) h) hb (ix2 p q)
      = x1 (ix3 (0 : Fin 1) k q) := by
  refine (Cert.LibColsJoin.bcast_row (by decide) _ hb p q).trans ?_
  refine (slice_row off _ h (0 : Fin 1) q k hk).trans ?_
  exact shapeCast_1ab_ab_apply x1 hc k q

/-- The square of the difference of the two points' coordinate k. -/
def term (k : Fin 3) : EReal :=
  (x0 (ix3 (0 : Fin 1) p k) - x1 (ix3 (0 : Fin 1) k q)) * (x0 (ix3 (0 : Fin 1) p k) - x1 (ix3 (0 : Fin 1) k q))

/-- Entry (p, q) of the distance block: the three squares added from the left. -/
theorem pay2_apply :
    k0_pay2 (F := Ideal) x0 x1 (ix2 p q) = (term x0 x1 p q 0 + term x0 x1 p q 1) + term x0 x1 p q 2 := by
  have c0 := col_read x0 p q 0 (0 : Fin 3) rfl shapeCasts_S1x512x3_S512x3 slices_S512x3_o0_0_S512x1 broadcasts_S512x1_S512x4096
  have c1 := col_read x0 p q 1 (1 : Fin 3) rfl shapeCasts_S1x512x3_S512x3 slices_S512x3_o0_1_S512x1 broadcasts_S512x1_S512x4096
  have c2 := col_read x0 p q 2 (2 : Fin 3) rfl shapeCasts_S1x512x3_S512x3 slices_S512x3_o0_2_S512x1 broadcasts_S512x1_S512x4096
  have r0 := row_read x1 p q 0 (0 : Fin 3) rfl shapeCasts_S1x3x4096_S3x4096 slices_S3x4096_o0_0_S1x4096 broadcasts_S1x4096_S512x4096
  have r1 := row_read x1 p q 1 (1 : Fin 3) rfl shapeCasts_S1x3x4096_S3x4096 slices_S3x4096_o1_0_S1x4096 broadcasts_S1x4096_S512x4096
  have r2 := row_read x1 p q 2 (2 : Fin 3) rfl shapeCasts_S1x3x4096_S3x4096 slices_S3x4096_o2_0_S1x4096 broadcasts_S1x4096_S512x4096
  unfold term
  rw [← c0, ← c1, ← c2, ← r0, ← r1, ← r2]
  rfl

end Cert.KernelIdeal.Blocks

end
-- ==== Proof.ArraysBlocks.lean ====
/-
  The input blocks read at coordinates, and the tile's squared distances in terms of the two clouds.

  The grid has 16 batches of 8 row tiles, batch first: point t works on tile t % 8 of batch t / 8. The first window's
  block at point t is rows (t % 8) * 512 ... (t % 8) * 512 + 511 of batch t / 8 of the first cloud; the second window's
  block is the whole of batch t / 8 of the second cloud, transposed (points along the last axis). So entry (p, q) of the
  tile's distance block is the squared distance between point (t % 8) * 512 + p of the first cloud and point q of the
  second, in batch t / 8.
-/
import proofs.«179750_j19164144075465_2_alg».proof.Proof.Gen.KernelIdeal.Frame
import proofs.«179750_j19164144075465_2_alg».proof.Proof.Spec
import proofs.«179750_j19164144075465_2_alg».proof.Proof.BlocksDist
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The grid has 128 points. -/
theorem N128 : cfg0.N = 128 := N_0

/-- The first window's block index at point t: batch t / 8, tile t % 8, all three coordinates. -/
theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, win0_0.index t (0 : Fin 3) = t.val / 8 ∧ win0_0.index t (1 : Fin 3) = t.val % 8
    ∧ win0_0.index t (2 : Fin 3) = 0)

/-- The second window's block index at point t: batch t / 8, the whole batch. -/
theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)

theorem batch_lt (t : Fin cfg0.N) : t.val / 8 < 16 := by have := lt_of_lt_of_eq t.isLt N128; omega
theorem row_lt (t : Fin cfg0.N) (p : Fin 512) : t.val % 8 * 512 + p.val < 4096 := by have := p.isLt; omega

/-- The first window's block at point t, entry (0, p, k): coordinate k of point (t % 8) * 512 + p of batch t / 8 of the
    first cloud. -/
theorem iblk0_apply (t : Fin cfg0.N) (p : Fin 512) (k : Fin 3) :
    iblk m c 0 t (ix3 (0 : Fin 1) p k)
      = m ((c : Thread nD τ).loc main_arg0) (ix3 ⟨t.val / 8, batch_lt t⟩ ⟨t.val % 8 * 512 + p.val, row_lt t p⟩ k) := by
  unfold iblk
  rw [View.read_apply]
  show V m c main_arg0 _ = _
  rw [V_main_arg0]
  congr 1
  funext a
  apply Fin.ext
  match a with
  | ⟨0, _⟩ => show win0_0.index t 0 * 1 + 1 * 0 = t.val / 8; rw [(idx0 t).1]; omega
  | ⟨1, _⟩ => show win0_0.index t 1 * 512 + 1 * p.val = t.val % 8 * 512 + p.val; rw [(idx0 t).2.1]; omega
  | ⟨2, _⟩ => show win0_0.index t 2 * 3 + 1 * k.val = k.val; rw [(idx0 t).2.2]; omega

/-- The second window's array as the region finds it: the second cloud with its last two axes exchanged, written by
    the one host operation before the region. -/
theorem V_main_v0 : (V m c main_v0 : S16x3x4096.Idx → EReal)
    = transpose S16x3x4096 [0, 2, 1] (m ((c : Thread nD τ).loc main_arg1)) transposes_S16x4096x3_S16x3x4096_0_2_1 := by
  show StableHlo.after hostOps0 (fun b => m (c, b)) (Proc.devRef .tc main_v0) = _
  after_results

/-- The second window's block at point t, entry (0, k, q): coordinate k of point q of batch t / 8 of the second cloud. -/
theorem iblk1_apply (t : Fin cfg0.N) (k : Fin 3) (q : Fin 4096) :
    iblk m c 1 t (ix3 (0 : Fin 1) k q)
      = m ((c : Thread nD τ).loc main_arg1) (ix3 ⟨t.val / 8, batch_lt t⟩ q k) := by
  unfold iblk
  rw [View.read_apply]
  show V m c main_v0 _ = _
  rw [V_main_v0]
  refine Eq.trans ?_ (transpose_ix3_021_apply (m ((c : Thread nD τ).loc main_arg1))
    transposes_S16x4096x3_S16x3x4096_0_2_1 ⟨t.val / 8, batch_lt t⟩ k q)
  congr 1
  funext a
  apply Fin.ext
  match a with
  | ⟨0, _⟩ => show win0_1.index t 0 * 1 + 1 * 0 = t.val / 8; rw [(idx1 t).1]; omega
  | ⟨1, _⟩ => show win0_1.index t 1 * 3 + 1 * k.val = k.val; rw [(idx1 t).2.1]; omega
  | ⟨2, _⟩ => show win0_1.index t 2 * 4096 + 1 * q.val = q.val; rw [(idx1 t).2.2]; omega

/-- Blocks that read two clouds at point n of the first and point q of the second, in batch P, give the squared
    distance of those two points at entry (p, q) of the distance block. -/
theorem dsq_of_reads (x0 : Vec Ideal S1x512x3 .f32) (x1 : Vec Ideal S1x3x4096 .f32) (a b : Cert.Chamfer.Cloud)
    (P : Fin 16) (n : Fin 4096) (p : Fin 512) (q : Fin 4096)
    (h0 : ∀ k : Fin 3, x0 (ix3 (0 : Fin 1) p k) = a (ix3 P n k))
    (h1 : ∀ k : Fin 3, x1 (ix3 (0 : Fin 1) k q) = b (ix3 P q k)) :
    k0_pay2 (F := Ideal) x0 x1 (ix2 p q) = Cert.Chamfer.dsq a b P n q := by
  refine (Blocks.pay2_apply x0 x1 p q).trans ?_
  unfold Blocks.term Cert.Chamfer.dsq Cert.Chamfer.sqd
  rw [h0 0, h0 1, h0 2, h1 0, h1 1, h1 2]

/-- Entry (p, q) of the distance block at point t: the squared distance between point (t % 8) * 512 + p of the first
    cloud and point q of the second, in batch t / 8. -/
theorem tile_dsq (t : Fin cfg0.N) (p : Fin 512) (q : Fin 4096) :
    k0_pay2 (F := Ideal) (iblk m c 0 t) (iblk m c 1 t) (ix2 p q)
      = Cert.Chamfer.dsq (m ((c : Thread nD τ).loc main_arg0)) (m ((c : Thread nD τ).loc main_arg1))
          ⟨t.val / 8, batch_lt t⟩ ⟨t.val % 8 * 512 + p.val, row_lt t p⟩ q :=
  dsq_of_reads (iblk m c 0 t) (iblk m c 1 t) (m ((c : Thread nD τ).loc main_arg0)) (m ((c : Thread nD τ).loc main_arg1))
    ⟨t.val / 8, batch_lt t⟩ ⟨t.val % 8 * 512 + p.val, row_lt t p⟩ p q
    (fun k => iblk0_apply m c t p k) (fun k => iblk1_apply m c t k q)

end Cert.KernelIdeal.Arrays

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibMinAxis.lean ====
/-
  Minima over one axis of a matrix read at explicit coordinates, at the exact (extended-real) values.

  Row t of an [a, b] array reduced over its second axis collects the entries (t, s), s running over the b columns; column
  t reduced over the first axis collects the entries (s, t), s running over the a rows. A minimum taken from a starting
  value is the fold of min over those entries from that value; the starting pattern of a minimum, +infinity, is the top
  extended real.
-/
import proofs.«179750_j19164144075465_2_alg».proof.Proof.LibRows
import proofs.«179750_j19164144075465_2_alg».proof.Proof.LibCols

namespace Cert.LibMinAxis

open Idealize.ShloMosaic Idealize.ShloMosaic.ValueIdx

variable {φ : FTy}

/-- A minimum over ONE axis: the fold of min from the accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A row's minimum: the fold of min over the row's entries, from the accumulator's value. -/
theorem rowMin_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (t : Fin a) :
    multiReduction .minimumf [1] ⟨1, ![a]⟩ v acc h hφ hacc (ix1 t)
      = (Finset.univ : Finset (Fin b)).fold min (Ideal.ofBits φ acc) (fun s => v (ix2 t s)) := by
  rw [multiReduction_minimumf_single]
  have e : (v ∘ h.lift (ix1 t)) = fun s : Fin b => v (ix2 t s) := funext fun s => congrArg v (lift_last_ix2 h t s)
  rw [e]
  rfl

/-- A column's minimum: the fold of min over the column's entries, from the accumulator's value. -/
theorem colMin_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (t : Fin b) :
    multiReduction .minimumf [0] ⟨1, ![b]⟩ v acc h hφ hacc (ix1 t)
      = (Finset.univ : Finset (Fin a)).fold min (Ideal.ofBits φ acc) (fun s => v (ix2 s t)) := by
  rw [multiReduction_minimumf_single]
  have e : (v ∘ h.lift (ix1 t)) = fun s : Fin a => v (ix2 s t) := funext fun s => congrArg v (lift_first_ix2 h t s)
  rw [e]
  rfl

/-- The f32 pattern of +infinity is the top extended real. -/
theorem ofBits_inf_f32 : Ideal.ofBits .f32 0x7F800000#32 = ⊤ := by simp [Ideal.ofBits, Ideal.ieee]

end Cert.LibMinAxis
-- ==== Proof.Blocks.lean ====
/-
  The kernel's stored values read at explicit coordinates, at the exact (extended-real) values.

  Per tile the kernel stores, for each point p of the tile, the square root of the least squared distance from p to a
  point of the second cloud, and keeps, for each point q of the second cloud, the least squared distance from a point of
  the tile to q: written as it is at the first tile, merged by a minimum with the value kept so far at a later tile, and
  replaced by its square root after the last tile. A least value over an axis, taken from +infinity, is the fold of min
  from the top extended real over that axis's coordinates; the casts between [n], [1, n], [n, 1] and the same shapes with
  one more leading unit axis keep every entry at its coordinates.
-/
import proofs.«179750_j19164144075465_2_alg».proof.Proof.Gen.KernelIdeal.Skeleton
import Idealize.ShloMosaic.Lib.ValueLayout
import proofs.«179750_j19164144075465_2_alg».proof.Proof.LibLayout
import proofs.«179750_j19164144075465_2_alg».proof.Proof.LibMinAxis

noncomputable section

namespace Cert.KernelIdeal.Blocks

open Idealize.ShloMosaic Idealize.ShloMosaic.ValueIdx Cert.KernelIdeal Cert.KernelIdeal.Gen Cert.LibMinAxis

variable (x0 : Vec Ideal S1x512x3 .f32) (x1 : Vec Ideal S1x3x4096 .f32) (v : Vec Ideal S1x1x4096 .f32)
  (p : Fin 512) (q : Fin 4096)

/-- The tile's column minimum at q: the least squared distance from a point of the tile to point q. -/
theorem pay3_apply :
    k0_pay3 (F := Ideal) x0 x1 (ix2 (0 : Fin 1) q)
      = Finset.univ.fold min ⊤ fun p : Fin 512 => k0_pay2 (F := Ideal) x0 x1 (ix2 p q) := by
  unfold k0_pay3
  refine (shapeCast_a_1a_apply _ shapeCasts_S4096_S1x4096 (0 : Fin 1) q).trans ?_
  refine (colMin_apply (k0_pay2 (F := Ideal) x0 x1) _ reduces_S512x4096_S4096 (.inl rfl) rfl q).trans ?_
  exact congrArg (fun t : EReal => (Finset.univ : Finset (Fin 512)).fold min t
    fun p : Fin 512 => k0_pay2 (F := Ideal) x0 x1 (ix2 p q)) ofBits_inf_f32

/-- The value stored for point p of the tile: the square root of the least squared distance from p to a point of the
    second cloud. -/
theorem pay4_apply :
    k0_pay4 (F := Ideal) x0 x1 (ix3 (0 : Fin 1) p (0 : Fin 1))
      = Ideal.sqrt (Finset.univ.fold min ⊤ fun q : Fin 4096 => k0_pay2 (F := Ideal) x0 x1 (ix2 p q)) := by
  unfold k0_pay4
  refine (shapeCast_ab_1ab_apply _ shapeCasts_S512x1_S1x512x1 (0 : Fin 1) p (0 : Fin 1)).trans ?_
  refine (sqrt_apply _ _).trans ?_
  refine congrArg Ideal.sqrt ?_
  refine (shapeCast_a_a1_apply _ shapeCasts_S512_S512x1 p (0 : Fin 1)).trans ?_
  refine (rowMin_apply (k0_pay2 (F := Ideal) x0 x1) _ reduces_S512x4096_S512 (.inl rfl) rfl p).trans ?_
  exact congrArg (fun t : EReal => (Finset.univ : Finset (Fin 4096)).fold min t
    fun q : Fin 4096 => k0_pay2 (F := Ideal) x0 x1 (ix2 p q)) ofBits_inf_f32

/-- At the first tile the kept value is the tile's column minimum. -/
theorem pay5_apply :
    k0_pay5 (F := Ideal) x0 x1 (ix3 (0 : Fin 1) (0 : Fin 1) q) = k0_pay3 (F := Ideal) x0 x1 (ix2 (0 : Fin 1) q) := by
  unfold k0_pay5
  exact shapeCast_ab_1ab_apply _ shapeCasts_S1x4096_S1x1x4096 (0 : Fin 1) (0 : Fin 1) q

/-- At a later tile the kept value is the minimum of the value kept so far and the tile's column minimum. -/
theorem pay6_apply :
    k0_pay6 (F := Ideal) x0 x1 v (ix3 (0 : Fin 1) (0 : Fin 1) q)
      = min (v (ix3 (0 : Fin 1) (0 : Fin 1) q)) (k0_pay3 (F := Ideal) x0 x1 (ix2 (0 : Fin 1) q)) := by
  unfold k0_pay6
  refine (shapeCast_ab_1ab_apply _ shapeCasts_S1x4096_S1x1x4096 (0 : Fin 1) (0 : Fin 1) q).trans ?_
  refine (minimumf_apply _ _ _).trans ?_
  exact congrArg (fun t : EReal => min t (k0_pay3 (F := Ideal) x0 x1 (ix2 (0 : Fin 1) q)))
    (shapeCast_1ab_ab_apply v shapeCasts_S1x1x4096_S1x4096 (0 : Fin 1) q)

/-- After the last tile the kept value is replaced by its square root. -/
theorem pay1_apply :
    k0_pay1 (F := Ideal) v (ix3 (0 : Fin 1) (0 : Fin 1) q) = Ideal.sqrt (v (ix3 (0 : Fin 1) (0 : Fin 1) q)) := by
  unfold k0_pay1
  refine (shapeCast_ab_1ab_apply _ shapeCasts_S1x4096_S1x1x4096 (0 : Fin 1) (0 : Fin 1) q).trans ?_
  refine (sqrt_apply _ _).trans ?_
  exact congrArg Ideal.sqrt (shapeCast_1ab_ab_apply v shapeCasts_S1x1x4096_S1x4096 (0 : Fin 1) q)

end Cert.KernelIdeal.Blocks

end
-- ==== Proof.LibMinFold.lean ====
/-
  Least values over finite ranges, as folds of `min` from the top element of a linear order with top.

  A value is below such a fold exactly when it is below every entry; so two folds over the same entries, however
  the entries are grouped or ordered, are equal. Two groupings are used: a range of A·B entries cut into A
  consecutive stretches of B, the least value taken per stretch and then over the stretches; and the same
  stretches met one after the other by a running minimum that starts at the top element.
-/
import Mathlib.Data.Finset.Fold
import Mathlib.Order.Lattice
import Mathlib.Data.Fintype.Basic
import Mathlib.Tactic

namespace Cert.LibMinFold

variable {α : Type*} [LinearOrder α] [OrderTop α]

/-- A value is below the least entry of a finite family exactly when it is below every entry. -/
theorem le_foldMin_iff {ι : Type*} [Fintype ι] (f : ι → α) (z : α) :
    z ≤ (Finset.univ : Finset ι).fold min ⊤ f ↔ ∀ x, z ≤ f x := by
  rw [Finset.le_fold_min]
  exact ⟨fun h x => h.2 x (Finset.mem_univ x), fun h => ⟨le_top, fun x _ => h x⟩⟩

/-- Two finite families with the same lower bounds have the same least entry. -/
theorem foldMin_eq_of_forall {ι κ : Type*} [Fintype ι] [Fintype κ] (f : ι → α) (g : κ → α)
    (h : ∀ z, (∀ x, z ≤ f x) ↔ ∀ y, z ≤ g y) :
    (Finset.univ : Finset ι).fold min ⊤ f = (Finset.univ : Finset κ).fold min ⊤ g :=
  eq_of_forall_le_iff fun z => by rw [le_foldMin_iff, le_foldMin_iff]; exact h z

/-- Pointwise equal families have the same least entry. -/
theorem foldMin_congr {ι : Type*} [Fintype ι] (f g : ι → α) (h : ∀ x, f x = g x) :
    (Finset.univ : Finset ι).fold min ⊤ f = (Finset.univ : Finset ι).fold min ⊤ g := by
  rw [show f = g from funext h]

/-- A range of `N = A·B` entries cut into `A` stretches of `B`: entry `r` of stretch `t` is entry `B·t + r`. The least
    over the stretches of each stretch's least entry is the least entry of the range. -/
theorem foldMin_stretches {A B N : ℕ} (hN : N = A * B) (f : Fin N → α) (g : Fin A → Fin B → α)
    (hg : ∀ (t : Fin A) (r : Fin B) (h : B * t.val + r.val < N), g t r = f ⟨B * t.val + r.val, h⟩) :
    (Finset.univ : Finset (Fin A)).fold min ⊤ (fun t => (Finset.univ : Finset (Fin B)).fold min ⊤ (g t))
      = (Finset.univ : Finset (Fin N)).fold min ⊤ f := by
  refine eq_of_forall_le_iff fun z => ?_
  rw [le_foldMin_iff, le_foldMin_iff]
  constructor
  · intro h i
    have hi : i.val < A * B := hN ▸ i.isLt
    have hB : 0 < B := by
      rcases Nat.eq_zero_or_pos B with h0 | h0
      · rw [h0, Nat.mul_zero] at hi; omega
      · exact h0
    have ht : i.val / B < A := Nat.div_lt_of_lt_mul (by rw [Nat.mul_comm]; exact hi)
    have hr : i.val % B < B := Nat.mod_lt _ hB
    have e : B * (i.val / B) + i.val % B = i.val := Nat.div_add_mod _ _
    have h1 := (le_foldMin_iff (g ⟨i.val / B, ht⟩) z).mp (h ⟨i.val / B, ht⟩) ⟨i.val % B, hr⟩
    rw [hg ⟨i.val / B, ht⟩ ⟨i.val % B, hr⟩ (by show B * (i.val / B) + i.val % B < N; rw [e]; exact i.isLt)] at h1
    have e' : (⟨B * (i.val / B) + i.val % B, by rw [e]; exact i.isLt⟩ : Fin N) = i := Fin.ext e
    rwa [e'] at h1
  · intro h t
    rw [le_foldMin_iff]
    intro r
    have hlt : B * t.val + r.val < N := by
      have h1 : B * t.val + r.val < B * (t.val + 1) := by rw [Nat.mul_succ]; exact Nat.add_lt_add_left r.isLt _
      have h2 : B * (t.val + 1) ≤ B * A := Nat.mul_le_mul_left _ t.isLt
      rw [hN, Nat.mul_comm A B]; omega
    rw [hg t r hlt]
    exact h _

/-- The same stretches met one after the other: a running value starts at the top element and after stretch `k`
    is its minimum with that stretch's least entry. After all `A` stretches it is the least entry of the range. -/
theorem runningMin_stretches {A B N : ℕ} (hN : N = A * B) (f : Fin N → α) (g : Fin A → Fin B → α)
    (hg : ∀ (t : Fin A) (r : Fin B) (h : B * t.val + r.val < N), g t r = f ⟨B * t.val + r.val, h⟩)
    (a : ℕ → α) (h0 : a 0 = ⊤)
    (hs : ∀ (k : ℕ) (hk : k < A), a (k + 1) = min (a k) ((Finset.univ : Finset (Fin B)).fold min ⊤ (g ⟨k, hk⟩))) :
    a A = (Finset.univ : Finset (Fin N)).fold min ⊤ f := by
  have inv : ∀ k, k ≤ A → ∀ z, z ≤ a k ↔ ∀ t : Fin A, t.val < k → ∀ r, z ≤ g t r := by
    intro k
    induction k with
    | zero => intro _ z; rw [h0]; exact ⟨fun _ t ht => absurd ht (Nat.not_lt_zero _), fun _ => le_top⟩
    | succ k ih =>
      intro hk z
      have hk' : k < A := hk
      rw [hs k hk', le_min_iff, ih (Nat.le_of_lt hk') z, le_foldMin_iff]
      constructor
      · rintro ⟨h1, h2⟩ t ht r
        rcases Nat.lt_succ_iff_lt_or_eq.mp ht with h | h
        · exact h1 t h r
        · have : t = ⟨k, hk'⟩ := Fin.ext h
          rw [this]; exact h2 r
      · intro h
        exact ⟨fun t ht r => h t (Nat.lt_succ_of_lt ht) r, fun r => h ⟨k, hk'⟩ (Nat.lt_succ_self k) r⟩
  rw [← foldMin_stretches hN f g hg]
  refine eq_of_forall_le_iff fun z => ?_
  rw [inv A (Nat.le_refl A) z, le_foldMin_iff]
  exact ⟨fun h t => (le_foldMin_iff (g t) z).mpr (h t t.isLt), fun h t _ r => (le_foldMin_iff (g t) z).mp (h t) r⟩

end Cert.LibMinFold
-- ==== Proof.ArraysOut1.lean ====
/-
  The first output array after the run.

  The first output is written back at every point: point t writes rows (t % 8) * 512 ... (t % 8) * 512 + 511 of batch
  t / 8, each the square root of the least squared distance from that point of the first cloud to a point of the second.
  The 128 points' blocks tile the array (row r of batch b is in the block of point 8 b + r / 512), so the array ends
  holding, at (b, r, 0), the distance from point r of batch b of the first cloud to the nearest point of the second.
-/
import proofs.«179750_j19164144075465_2_alg».proof.Proof.KernelIdeal.Data
import proofs.«179750_j19164144075465_2_alg».proof.Proof.ArraysBlocks
import proofs.«179750_j19164144075465_2_alg».proof.Proof.Blocks
import proofs.«179750_j19164144075465_2_alg».proof.Proof.LibMinFold
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Body (dats)

variable (m : (ℓ : Loc nD τ sig) → Buf (Elt Ideal) ℓ) (c : Dev nD)

/-- The first output window's block index at point t: batch t / 8, tile t % 8. -/
theorem idx2 : ∀ t : Fin cfg0.N, win0_2.index t (0 : Fin 3) = t.val / 8 ∧ win0_2.index t (1 : Fin 3) = t.val % 8
    ∧ win0_2.index t (2 : Fin 3) = 0 :=
  (by decide +kernel : ∀ t : Fin grid0.N, win0_2.index t (0 : Fin 3) = t.val / 8 ∧ win0_2.index t (1 : Fin 3) = t.val % 8
    ∧ win0_2.index t (2 : Fin 3) = 0)

/-- A tile whose distance block holds, in row p, the squared distances from point n of the first cloud stores for p the
    distance from n to the nearest point of the second cloud. -/
theorem near1_of_tile (x0 : Vec Ideal S1x512x3 .f32) (x1 : Vec Ideal S1x3x4096 .f32) (a b : Cert.Chamfer.Cloud)
    (P : Fin 16) (n : Fin 4096) (p : Fin 512)
    (h : ∀ q : Fin 4096, k0_pay2 (F := Ideal) x0 x1 (ix2 p q) = Cert.Chamfer.dsq a b P n q) :
    k0_pay4 (F := Ideal) x0 x1 (ix3 (0 : Fin 1) p (0 : Fin 1)) = Cert.Chamfer.near1 a b P n := by
  refine (Blocks.pay4_apply x0 x1 p).trans ?_
  unfold Cert.Chamfer.near1
  exact congrArg Ideal.sqrt (Cert.LibMinFold.foldMin_congr _ _ h)

/-- What the first output array ends holding. -/
abbrev G1 : S16x4096x1.Idx → EReal := fun i =>
  Cert.Chamfer.near1 (m ((c : Thread nD τ).loc main_arg0)) (m ((c : Thread nD τ).loc main_arg1)) (i 0) (i 1)

/-- Two functions on a block of n rows with unit first and last axes agree when they agree on every row. -/
theorem block_ext {α : Type} {n : ℕ} (f g : (⟨3, ![1, n, 1]⟩ : Shape).Idx → α)
    (h : ∀ p : Fin n, f (ix3 (0 : Fin 1) p (0 : Fin 1)) = g (ix3 (0 : Fin 1) p (0 : Fin 1))) : f = g := by
  funext j
  have e0 : (j 0).val = 0 := by have h0 : (j 0).val < 1 := (j 0).isLt; omega
  have e2 : (j 2).val = 0 := by have h2 : (j 2).val < 1 := (j 2).isLt; omega
  have e : j = ix3 (0 : Fin 1) (j 1) (0 : Fin 1) := by
    funext a
    apply Fin.ext
    match a with
    | ⟨0, _⟩ => exact e0
    | ⟨1, _⟩ => rfl
    | ⟨2, _⟩ => exact e2
  rw [e]
  exact h (j 1)

/-- What point t writes back is its block of the nearest distances. -/
theorem flushed1_eq (t : Fin cfg0.N) :
    (dats m 0 c).flushed 2 t = ((cfg0.win 2).blk t).view.read (Elt Ideal) (G1 m c) := by
  show (cfg0.win 2).cut (grid0.coords t) ((dats m 0 c).after 2 t) = _
  rw [Body.after2]
  refine block_ext _ _ fun p => ?_
  show k0_pay4 (F := Ideal) (iblk m c 0 t) (iblk m c 1 t) (ix3 (0 : Fin 1) p (0 : Fin 1))
    = G1 m c (((cfg0.win 2).blk t).view.emb (ix3 (0 : Fin 1) p (0 : Fin 1)))
  refine (near1_of_tile _ _ _ _ ⟨t.val / 8, batch_lt t⟩ ⟨t.val % 8 * 512 + p.val, row_lt t p⟩ p
    (fun q => tile_dsq m c t p q)).trans ?_
  have eP : (⟨t.val / 8, batch_lt t⟩ : Fin 16)
      = (((cfg0.win 2).blk t).view.emb (ix3 (0 : Fin 1) p (0 : Fin 1)) : S16x4096x1.Idx) 0 :=
    Fin.ext (by show t.val / 8 = win0_2.index t 0 * 1 + 1 * 0; rw [(idx2 t).1]; omega)
  have eN : (⟨t.val % 8 * 512 + p.val, row_lt t p⟩ : Fin 4096)
      = (((cfg0.win 2).blk t).view.emb (ix3 (0 : Fin 1) p (0 : Fin 1)) : S16x4096x1.Idx) 1 :=
    Fin.ext (by show t.val % 8 * 512 + p.val = win0_2.index t 1 * 512 + 1 * p.val; rw [(idx2 t).2.1]; omega)
  exact congrArg₂ (Cert.Chamfer.near1 _ _) eP eN

/-- An index of the array is in point t's block exactly when each coordinate is in the block's range on its axis. -/
theorem mem_blk1 (t : Fin cfg0.N) (i : S16x4096x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v1_0).slice (win0_2.rect t)).set ↔ _
  rw [View.set_slice_whole, Rect.mem_set_unit]
  exact Iff.rfl

/-- Every index of the array is in the block of some point: row r of batch b is written by point 8 b + r / 512. -/
theorem cover1 (i : S16x4096x1.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 1 := (i 2).isLt
  obtain ⟨t, ht⟩ : ∃ t : Fin cfg0.N, t.val = 8 * (i 0).val + (i 1).val / 512 :=
    ⟨⟨8 * (i 0).val + (i 1).val / 512, by rw [N128]; omega⟩, rfl⟩
  refine ⟨t, flush0_2 t, ?_⟩
  rw [mem_blk1]
  obtain ⟨e0, e1, e2⟩ := idx2 t
  intro a
  match a with
  | ⟨0, _⟩ =>
    show win0_2.index t 0 * 1 ≤ (i 0).val ∧ (i 0).val < win0_2.index t 0 * 1 + 1
    rw [e0]; omega
  | ⟨1, _⟩ =>
    show win0_2.index t 1 * 512 ≤ (i 1).val ∧ (i 1).val < win0_2.index t 1 * 512 + 512
    rw [e1]; omega
  | ⟨2, _⟩ =>
    show win0_2.index t 2 * 1 ≤ (i 2).val ∧ (i 2).val < win0_2.index t 2 * 1 + 1
    rw [e2]; omega

/-- The first output array ends holding, at (b, r, 0), the distance from point r of batch b of the first cloud to the
    nearest point of the second. -/
theorem out1_final : (dats m 0 c).arrAt 2 cfg0.N = fun i =>
    Cert.Chamfer.near1 (m ((c : Thread nD τ).loc main_arg0)) (m ((c : Thread nD τ).loc main_arg1)) (i 0) (i 1) :=
  (dats m 0 c).arrAt_eq_of_cover 2 (G1 m c) (fun t _ => flushed1_eq m c t) (fun i => cover1 i)

end Cert.KernelIdeal.Arrays

end
-- ==== Proof.RunningMin.lean ====
/-
  The running column minimum over a batch's eight row tiles.

  For a fixed batch and a fixed point `q` of the second cloud, the squared distances from the 4096 points of the first
  cloud fall into eight consecutive tiles of 512. A running value starts at the top element and after tile `k` is its
  minimum with that tile's least squared distance; after the eighth tile it is the least squared distance over the
  whole first cloud.
-/
import proofs.«179750_j19164144075465_2_alg».proof.Proof.Spec
import proofs.«179750_j19164144075465_2_alg».proof.Proof.LibMinFold

noncomputable section

namespace Cert.Chamfer

open Idealize.ShloMosaic Idealize.ShloMosaic.ValueIdx

/-- Row `r` of tile `k` is row `512·k + r` of the cloud. -/
def tileRow (k : Fin 8) (r : Fin 512) : Fin 4096 := ⟨512 * k.val + r.val, by have := k.isLt; have := r.isLt; omega⟩

/-- The least squared distance from point `q` of `b` to the rows of tile `k` of `a`. -/
def tileMin (a b : Cloud) (p : Fin 16) (q : Fin 4096) (k : Fin 8) : EReal :=
  (Finset.univ : Finset (Fin 512)).fold min ⊤ fun r => dsq a b p (tileRow k r) q

/-- The running minimum after the first `k` tiles (all eight from `k = 8` on). -/
def runMin (a b : Cloud) (p : Fin 16) (q : Fin 4096) : ℕ → EReal
  | 0 => ⊤
  | k + 1 => if h : k < 8 then min (runMin a b p q k) (tileMin a b p q ⟨k, h⟩) else runMin a b p q k

theorem runMin_zero (a b : Cloud) (p : Fin 16) (q : Fin 4096) : runMin a b p q 0 = ⊤ := rfl

theorem runMin_succ (a b : Cloud) (p : Fin 16) (q : Fin 4096) (k : ℕ) (h : k < 8) :
    runMin a b p q (k + 1) = min (runMin a b p q k) (tileMin a b p q ⟨k, h⟩) := by
  show (if h : k < 8 then min (runMin a b p q k) (tileMin a b p q ⟨k, h⟩) else runMin a b p q k) = _
  rw [dif_pos h]

/-- After the first tile the running minimum is that tile's least squared distance. -/
theorem runMin_one (a b : Cloud) (p : Fin 16) (q : Fin 4096) :
    runMin a b p q 1 = tileMin a b p q ⟨0, by decide⟩ := by
  rw [runMin_succ a b p q 0 (by decide), runMin_zero]
  exact min_eq_right le_top

/-- After all eight tiles the running minimum is the least squared distance over the whole first cloud. -/
theorem runMin_all (a b : Cloud) (p : Fin 16) (q : Fin 4096) :
    runMin a b p q 8 = (Finset.univ : Finset (Fin 4096)).fold min ⊤ fun n => dsq a b p n q :=
  Cert.LibMinFold.runningMin_stretches (A := 8) (B := 512) (N := 4096) rfl
    (fun n => dsq a b p n q) (fun k r => dsq a b p (tileRow k r) q)
    (fun k r h => rfl) (runMin a b p q) rfl
    (fun k hk => runMin_succ a b p q k hk)

end Cert.Chamfer

end
-- ==== Proof.ArraysOut2.lean ====
/-
  The second output array: the distance from each point of the second cloud to its nearest point of the first.

  The running-minimum buffer of a batch is written back once, after the batch's last row tile. At tile `k` of batch
  `b` the buffer holds, at column `q`, the running minimum of the squared distances from point `q` of the second cloud
  to the rows of tiles `0 … k` of the first (by induction on the tile: the first tile stores its column minima, each
  later tile takes the minimum with its own). At the last tile that minimum is over all eight tiles, that is over
  the whole first cloud, and its square root is stored. So the block written back at the last tile of batch `b` is row
  `b` of the array of nearest distances, and the sixteen blocks cover the array.
-/
import proofs.«179750_j19164144075465_2_alg».proof.Proof.KernelIdeal.Data
import proofs.«179750_j19164144075465_2_alg».proof.Proof.ArraysBlocks
import proofs.«179750_j19164144075465_2_alg».proof.Proof.Blocks
import proofs.«179750_j19164144075465_2_alg».proof.Proof.BlocksDist
import proofs.«179750_j19164144075465_2_alg».proof.Proof.RunningMin
import proofs.«179750_j19164144075465_2_alg».proof.Proof.LibMinFold
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.KernelIdeal.Blocks Cert.Chamfer

variable (m : (ℓ : Loc nD τ sig) → Buf (Elt Ideal) ℓ) (c : Dev nD)

/-- The two clouds: the argument arrays on core `c`. -/
abbrev cloud1 : Cloud := m ((c : Thread nD τ).loc main_arg0)
abbrev cloud2 : Cloud := m ((c : Thread nD τ).loc main_arg1)

/-- The column minima of the tile at point `t` = tile `k` of batch `b`: the least squared distance from point `q` of the
    second cloud to the tile's 512 rows. -/
theorem colTile (t : Fin cfg0.N) (b : Fin 16) (k : Fin 8) (ht : t.val = 8 * b.val + k.val) (q : Fin 4096) :
    k0_pay3 (F := Ideal) (iblk m c 0 t) (iblk m c 1 t) (ix2 (0 : Fin 1) q) = tileMin (cloud1 m c) (cloud2 m c) b q k := by
  refine (pay3_apply (iblk m c 0 t) (iblk m c 1 t) q).trans ?_
  unfold tileMin
  refine Cert.LibMinFold.foldMin_congr _ _ fun p => ?_
  refine (tile_dsq m c t p q).trans ?_
  have e1 : (⟨t.val / 8, batch_lt t⟩ : Fin 16) = b := Fin.ext (by show t.val / 8 = b.val; have := k.isLt; omega)
  have e2 : (⟨t.val % 8 * 512 + p.val, row_lt t p⟩ : Fin 4096) = tileRow k p :=
    Fin.ext (by show t.val % 8 * 512 + p.val = 512 * k.val + p.val; have := k.isLt; omega)
  rw [e1, e2]

/-- After tile `k ≤ 6` of batch `b` the running-minimum buffer holds, at column `q`, the running minimum over tiles
    `0 … k`. -/
theorem acc_run (b : Fin 16) (q : Fin 4096) : ∀ (k : ℕ) (hk : k < 7) (t : Fin cfg0.N) (ht : t.val = 8 * b.val + k),
    acc m c t.val t.isLt (ix3 (0 : Fin 1) (0 : Fin 1) q) = runMin (cloud1 m c) (cloud2 m c) b q (k + 1)
  | 0, _, t, ht => by
    have h0 : t.val % 8 = 0 := by omega
    rw [acc_first m c t h0]
    refine (pay5_apply (iblk m c 0 t) (iblk m c 1 t) q).trans ?_
    rw [colTile m c t b ⟨0, by decide⟩ ht q, runMin_one]
  | k + 1, hk, t, ht => by
    have h0 : ¬t.val % 8 = 0 := by omega
    have h7 : ¬t.val % 8 = 7 := by omega
    have hlt : t.val - 1 < cfg0.N := Nat.lt_of_le_of_lt (Nat.sub_le _ _) t.isLt
    have ih : acc m c (t.val - 1) hlt (ix3 (0 : Fin 1) (0 : Fin 1) q) = runMin (cloud1 m c) (cloud2 m c) b q (k + 1) :=
      acc_run b q k (by omega) ⟨t.val - 1, hlt⟩ (by show t.val - 1 = 8 * b.val + k; omega)
    rw [acc_mid m c t h0 h7]
    refine (pay6_apply (iblk m c 0 t) (iblk m c 1 t) _ q).trans ?_
    rw [ih, colTile m c t b ⟨k + 1, by omega⟩ ht q, ← runMin_succ _ _ b q (k + 1) (by omega)]

/-- After the last tile of a batch the buffer holds, at column `q`, the distance from point `q` of the second cloud to
    its nearest point of the first. -/
theorem acc_done (t : Fin cfg0.N) (h7 : t.val % 8 = 7) (q : Fin 4096) :
    acc m c t.val t.isLt (ix3 (0 : Fin 1) (0 : Fin 1) q) = near2 (cloud1 m c) (cloud2 m c) ⟨t.val / 8, batch_lt t⟩ q := by
  have hN : t.val < 128 := lt_of_lt_of_eq t.isLt N_eq
  have ht : t.val = 8 * (⟨t.val / 8, batch_lt t⟩ : Fin 16).val + 7 := by show t.val = 8 * (t.val / 8) + 7; omega
  have hlt : t.val - 1 < cfg0.N := Nat.lt_of_le_of_lt (Nat.sub_le _ _) t.isLt
  have ih : acc m c (t.val - 1) hlt (ix3 (0 : Fin 1) (0 : Fin 1) q)
      = runMin (cloud1 m c) (cloud2 m c) ⟨t.val / 8, batch_lt t⟩ q 7 :=
    acc_run m c ⟨t.val / 8, batch_lt t⟩ q 6 (by decide) ⟨t.val - 1, hlt⟩ (by show t.val - 1 = 8 * (t.val / 8) + 6; omega)
  unfold near2
  rw [acc_last m c t h7]
  refine (pay1_apply _ q).trans ?_
  refine congrArg Ideal.sqrt ?_
  refine (pay6_apply (iblk m c 0 t) (iblk m c 1 t) _ q).trans ?_
  rw [ih, colTile m c t ⟨t.val / 8, batch_lt t⟩ ⟨7, by decide⟩ ht q, ← runMin_succ _ _ _ q 7 (by decide), runMin_all]

/-! ## From the blocks to the array -/

/-- The second output's index map: block `(t / 8, 0, 0)` at point `t`. -/
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- The array of nearest distances from the second cloud to the first, laid out [16, 1, 4096]. -/
abbrev nearTo1 : S16x1x4096.Idx → EReal := fun i => near2 (cloud1 m c) (cloud2 m c) (i 0) (i 2)

/-- What a batch's last tile writes back is the batch's row of that array. -/
theorem flushed3_eq (t : Fin cfg0.N) (hf : (cfg0.win 3).flush t = true) :
    (dats m 0 c).flushed 3 t = ((cfg0.win 3).blk t).view.read (Elt Ideal) (nearTo1 m c) := by
  have h7 : t.val % 8 = 7 := (flush0_3 t).mp hf
  show (cfg0.win 3).cut (grid0.coords t) ((dats m 0 c).after 3 t) = _
  rw [after3]
  obtain ⟨e0, e1, e2⟩ := idx3 t
  funext j
  show acc m c t.val t.isLt j = nearTo1 m c (((cfg0.win 3).blk t).view.emb j)
  obtain ⟨q, rfl⟩ : ∃ q : Fin 4096, j = ix3 (0 : Fin 1) (0 : Fin 1) q :=
    ⟨j 2, funext fun a => by
      match a with
      | ⟨0, _⟩ => exact Subsingleton.elim (α := Fin 1) _ _
      | ⟨1, _⟩ => exact Subsingleton.elim (α := Fin 1) _ _
      | ⟨2, _⟩ => rfl⟩
  rw [acc_done m c t h7 q]
  show near2 _ _ _ q = near2 _ _ ((((cfg0.win 3).blk t).view.emb (ix3 (0 : Fin 1) (0 : Fin 1) q)) 0) ((((cfg0.win 3).blk t).view.emb (ix3 (0 : Fin 1) (0 : Fin 1) q)) 2)
  congr 1
  · apply Fin.ext
    show t.val / 8 = win0_3.index t (0 : Fin 3) * 1 + 1 * 0
    rw [e0]; omega
  · apply Fin.ext
    show q.val = win0_3.index t (2 : Fin 3) * 4096 + 1 * q.val
    rw [e2]; omega

/-- An index of the array is in point `t`'s block iff each coordinate is in the block's range on its axis. -/
theorem mem_blk3 (t : Fin cfg0.N) (i : S16x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Row `b` of the array is written back by the last tile of batch `b`. -/
theorem cover3 (i : S16x1x4096.Idx) : ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 4096 := (i 2).isLt
  have hlt : 8 * (i 0).val + 7 < cfg0.N := by rw [N_eq]; omega
  obtain ⟨e0, e1, e2⟩ := idx3 ⟨8 * (i 0).val + 7, hlt⟩
  have tv : (⟨8 * (i 0).val + 7, hlt⟩ : Fin cfg0.N).val = 8 * (i 0).val + 7 := rfl
  refine ⟨⟨8 * (i 0).val + 7, hlt⟩, (flush0_3 _).mpr (by rw [tv]; omega), ?_⟩
  rw [mem_blk3]
  intro a
  match a with
  | ⟨0, _⟩ =>
    show win0_3.index ⟨8 * (i 0).val + 7, hlt⟩ (0 : Fin 3) * 1 ≤ (i 0).val ∧ (i 0).val < win0_3.index ⟨8 * (i 0).val + 7, hlt⟩ (0 : Fin 3) * 1 + 1
    rw [e0, tv]; omega
  | ⟨1, _⟩ =>
    show win0_3.index ⟨8 * (i 0).val + 7, hlt⟩ (1 : Fin 3) * 1 ≤ (i 1).val ∧ (i 1).val < win0_3.index ⟨8 * (i 0).val + 7, hlt⟩ (1 : Fin 3) * 1 + 1
    rw [e1]; omega
  | ⟨2, _⟩ =>
    show win0_3.index ⟨8 * (i 0).val + 7, hlt⟩ (2 : Fin 3) * 4096 ≤ (i 2).val ∧ (i 2).val < win0_3.index ⟨8 * (i 0).val + 7, hlt⟩ (2 : Fin 3) * 4096 + 4096
    rw [e2]; omega

/-- The second output array after the run: the nearest distances from the second cloud to the first. -/
theorem out2_final : (dats m 0 c).arrAt 3 cfg0.N = nearTo1 m c :=
  (dats m 0 c).arrAt_eq_of_cover 3 (nearTo1 m c) (flushed3_eq m c) cover3

end Cert.KernelIdeal.Arrays

end
-- ==== Proof.Tail.lean ====
/-
  The averaging both programs end with, and the two layout changes in front of it.

  Both programs finish in the same way on two [16, 4096] arrays of distances: each array is summed from zero over both
  axes and the sum divided by 65536 = 16 · 4096 (its mean), the two means are added, the sum is divided by 2 and
  multiplied by 1000. That is named here once, as one function of the two arrays, with no program in sight.

  In front of it one program holds the first array as a column per batch, [16, 4096, 1], and the second as a row per
  batch, [16, 1, 4096]; a reshape to [16, 4096] drops the axis of extent one. A unit axis does not move an entry's
  row-major position, so the reshaped array at (p, r) is the column at (p, r, 0), resp. the row at (p, 0, r).
-/
import Idealize.ShloMosaic.PureOps
import Idealize.ShloMosaic.PureOps.Ideal
import Idealize.ShloMosaic.Lib.ValueIdx
import Idealize.ShloMosaic.Lib.Pipeline.Value

noncomputable section

namespace Cert.Chamfer

open Idealize.ShloMosaic Idealize.ShloMosaic.ValueIdx

/-- Summing a [16, 4096] array over both axes leaves one number. -/
theorem tail_reduces : (⟨2, ![16, 4096]⟩ : Shape).ReducesTo [0, 1] (⟨0, ![]⟩ : Shape) := by decide

/-- The rank-0 shape holds one number. -/
theorem tail_pos : 0 < (⟨0, ![]⟩ : Shape).numel := by decide

/-- Mean of the first array plus mean of the second, divided by 2, times 1000: the sums start from the zero word, the
    divisors are the words of 65536 and 2, the factor the word of 1000. -/
def tail (d1 d2 : FVec Ideal (⟨2, ![16, 4096]⟩ : Shape) .f32) : FVec Ideal (⟨0, ![]⟩ : Shape) .f32 :=
  mulf
    (Host.divf
      (addf
        (Host.divf
          (Host.reduceAdd d1 (constant (F := Ideal) (⟨0, ![]⟩ : Shape) .f32 0x00000000#32) tail_reduces tail_pos)
          (constant (F := Ideal) (⟨0, ![]⟩ : Shape) .f32 0x47800000#32))
        (Host.divf
          (Host.reduceAdd d2 (constant (F := Ideal) (⟨0, ![]⟩ : Shape) .f32 0x00000000#32) tail_reduces tail_pos)
          (constant (F := Ideal) (⟨0, ![]⟩ : Shape) .f32 0x47800000#32)))
      (constant (F := Ideal) (⟨0, ![]⟩ : Shape) .f32 0x40000000#32))
    (constant (F := Ideal) (⟨0, ![]⟩ : Shape) .f32 0x447A0000#32)

/-- A column per batch, [a, b, 1], reshaped to [a, b], reads at (i, j) the column's entry (i, j, 0). -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A row per batch, [a, 1, b], reshaped to [a, b], reads at (i, j) the row's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The [16, 4096, 1] array of columns reshaped to [16, 4096], as a function of the index. -/
theorem shapeCast_cols (G : (⟨3, ![16, 4096, 1]⟩ : Shape).Idx → EReal)
    (h : (⟨3, ![16, 4096, 1]⟩ : Shape).ShapeCasts ⟨2, ![16, 4096]⟩) :
    shapeCast ⟨2, ![16, 4096]⟩ G h = fun i => G (ix3 (i 0) (i 1) (0 : Fin 1)) := by
  funext i
  obtain ⟨p, r, rfl⟩ : ∃ (p : Fin 16) (r : Fin 4096), i = ix2 p r := ⟨i 0, i 1, eq_ix2 i⟩
  exact shapeCast_ab1_ab_apply G h p r

/-- The [16, 1, 4096] array of rows reshaped to [16, 4096], as a function of the index. -/
theorem shapeCast_rows (G : (⟨3, ![16, 1, 4096]⟩ : Shape).Idx → EReal)
    (h : (⟨3, ![16, 1, 4096]⟩ : Shape).ShapeCasts ⟨2, ![16, 4096]⟩) :
    shapeCast ⟨2, ![16, 4096]⟩ G h = fun i => G (ix3 (i 0) (0 : Fin 1) (i 1)) := by
  funext i
  obtain ⟨p, r, rfl⟩ : ∃ (p : Fin 16) (r : Fin 4096), i = ix2 p r := ⟨i 0, i 1, eq_ix2 i⟩
  exact shapeCast_a1b_ab_apply G h p r

end Cert.Chamfer

end
-- ==== Proof.KernelTail.lean ====
/-
  The kernel program's result from the two arrays its region leaves.

  After the region the program holds one [16, 4096, 1] array (a column of distances per batch) and one [16, 1, 4096]
  array (a row of distances per batch). Fifteen host operations follow: each array reshaped to [16, 4096], then each
  summed from zero and divided by 65536, the two quotients added, the sum divided by 2 and multiplied by 1000. Read off
  in order, the last buffer holds the common averaging of the module Tail applied to the two reshaped arrays, whatever
  the region wrote into them.
-/
import proofs.«179750_j19164144075465_2_alg».proof.Proof.Gen.KernelIdeal.Frame
import proofs.«179750_j19164144075465_2_alg».proof.Proof.Tail
import Idealize.ShloMosaic.Lib.StableHlo.Run

set_option maxRecDepth 16384

noncomputable section

namespace Cert.KernelIdeal.TailValue

open Cert.KernelIdeal Cert.KernelIdeal.Gen Idealize.ShloMosaic Idealize.ShloMosaic.TcCoe Idealize.SL.Sem Idealize.ShloMosaic.StableHlo
open Idealize.ShloMosaic.Pipeline (Dat)

/-- For any proof data of the region: the program's result is the averaging of the third and fourth window's arrays
    after the last grid point, each reshaped to [16, 4096]. The buffers the two reshapes read are those two windows'
    arrays; every later operation reads only results of earlier ones. -/
theorem kernel_result (m : (ℓ : Loc nD τ sig) → Buf (Elt Ideal) ℓ)
    (dats : (p : Fin 1) → (c : Dev nD) → Dat τ (Elt Ideal) Unit ℕ (UR sig nD τ) ℕ (cfgs p) c) (c : Dev nD) :
    Pipeline.afterTail₀ cfgs dats 0 (V0 m) [hostOps1] c main_v10
      = Cert.Chamfer.tail (shapeCast S16x4096 ((dats 0 c).arrAt 2 cfg0.N) shapeCasts_S16x4096x1_S16x4096)
          (shapeCast S16x4096 ((dats 0 c).arrAt 3 cfg0.N) shapeCasts_S16x1x4096_S16x4096) := by
  have e2 : Pipeline.withArrays (cfgs 0).spec c (V0 m c) (fun w => (dats 0 c).arrAt w (cfgs 0).N) (Proc.devRef .tc main_v1_0)
      = (dats 0 c).arrAt 2 cfg0.N := Pipeline.withArrays_arr spec0 launch0.win.arr_inj c _ _ 2
  have e3 : Pipeline.withArrays (cfgs 0).spec c (V0 m c) (fun w => (dats 0 c).arrAt w (cfgs 0).N) (Proc.devRef .tc main_v1_1)
      = (dats 0 c).arrAt 3 cfg0.N := Pipeline.withArrays_arr spec0 launch0.win.arr_inj c _ _ 3
  unfold Pipeline.afterTail₀
  show StableHlo.after hostOps1 _ (Proc.devRef .tc main_v10) = _
  after_results
  rw [e2, e3]
  rfl

end Cert.KernelIdeal.TailValue

end
-- ==== Proof.Law.lean ====
/-
  The algebraic law that joins the two sides.

  For two points u, w of 3-space with REAL coordinates,
      |u|² + |w|² − 2 (u · w)  =  (u₀ − w₀)² + (u₁ − w₁)² + (u₂ − w₂)²,
  a sum of squares and therefore non-negative, so clamping it below at 0 changes nothing. The identity uses
  distributivity, which fails at ±∞ in the extended reals; it is proved in ℝ and carried to the extended reals
  through the coercion, which is why every coordinate is assumed to be a real number.
-/
import proofs.«179750_j19164144075465_2_alg».proof.Proof.Spec

noncomputable section

namespace Cert.Chamfer.Law

open Idealize.ShloMosaic

/-- The word 0x40000000 is the number two. -/
theorem ofBits_two : Ideal.ofBits .f32 0x40000000#32 = ((2 : ℝ) : EReal) := by
  simp [Ideal.ofBits, Ideal.ieee, -EReal.coe_mul]
  norm_num

/-- The word 0x7F800000 is +∞, the top element. -/
theorem ofBits_inf : Ideal.ofBits .f32 0x7F800000#32 = ⊤ := by simp [Ideal.ofBits, Ideal.ieee]

/-- Norms minus twice the inner product, clamped at zero, is the sum of the three squared differences, the squares
    added first to last — for real coordinates. Each norm is written as zero plus the sum of the three squares, the
    inner product as the sum of the three products, as the reference computes them. -/
theorem clamp_expand (f g : Fin 3 → EReal) (hf : ∀ k, ∃ r : ℝ, f k = (r : EReal)) (hg : ∀ k, ∃ r : ℝ, g k = (r : EReal)) :
    max (((0 + ∑ k : Fin 3, f k * f k) + (0 + ∑ k : Fin 3, g k * g k))
          - ((2 : ℝ) : EReal) * ∑ k : Fin 3, f k * g k) 0
      = ((f 0 - g 0) * (f 0 - g 0) + (f 1 - g 1) * (f 1 - g 1)) + (f 2 - g 2) * (f 2 - g 2) := by
  choose u hu using hf
  choose w hw using hg
  simp only [Fin.sum_univ_three, hu, hw, zero_add]
  simp only [← EReal.coe_mul, ← EReal.coe_add, ← EReal.coe_sub]
  have e : (u 0 * u 0 + u 1 * u 1 + u 2 * u 2 + (w 0 * w 0 + w 1 * w 1 + w 2 * w 2)
        - 2 * (u 0 * w 0 + u 1 * w 1 + u 2 * w 2) : ℝ)
      = (u 0 - w 0) * (u 0 - w 0) + (u 1 - w 1) * (u 1 - w 1) + (u 2 - w 2) * (u 2 - w 2) := by ring
  rw [e]
  exact max_eq_left (EReal.coe_nonneg.2
    (add_nonneg (add_nonneg (mul_self_nonneg _) (mul_self_nonneg _)) (mul_self_nonneg _)))

end Cert.Chamfer.Law

end
-- ==== Proof.RefSide.lean ====
/-
  The reference's nearest-neighbour distances are the specification's.

  The reference forms, for every pair of a point n of the first cloud and a point q of the second in batch p, the
  number |a_n|² + |b_q|² − 2 (a_n · b_q) clamped below at 0 — each norm as zero plus the sum of the three squares of
  the coordinates, the inner product as the sum of the three products — and then takes, from +∞, the least of these
  over q (for every n) and over n (for every q), and the square root of each least value. For real coordinates the
  clamped number is the squared distance, the three squared differences added first to last (the law of the module
  Law); a least value over one axis of a three-axis array is the fold of min, from the top element, over that axis's
  coordinate put back among the two that remain. So the two arrays of square roots are the specification's near1, near2.
-/
import proofs.«179750_j19164144075465_2_alg».proof.Proof.Gen.ReferenceIdeal.Read
import proofs.«179750_j19164144075465_2_alg».proof.Proof.Spec
import proofs.«179750_j19164144075465_2_alg».proof.Proof.Law

noncomputable section

namespace Cert.ReferenceIdeal.RefValue

open Cert.ReferenceIdeal Cert.ReferenceIdeal.Gen Cert.ReferenceIdeal.Read Idealize.ShloMosaic Idealize.ShloMosaic.ValueIdx Cert.Chamfer

/-- The clamped array at (p, n, q) is the squared distance between point n of the first cloud and point q of the
    second in batch p: the row norms are read at (p, n) and (p, q) through the two broadcasts, the product at
    (p, n, ·) and (p, q, ·), and the law for real coordinates joins them. -/
theorem clamped_apply (a b : Cloud) (ha : AllReal a) (hb : AllReal b) (p : Fin 16) (n q : Fin 4096) :
    val_main_v14 (F := Ideal) a b (ix3 p n q) = dsq a b p n q := by
  have e1 : ∀ k : Fin 3, idx_main_v1 (idx_main_v5 (idx_main_v7 (ix3 p n q))) k = ix3 p n k := fun k =>
    funext fun c => by match c with | ⟨0, _⟩ => rfl | ⟨1, _⟩ => rfl | ⟨2, _⟩ => rfl
  have e3 : ∀ k : Fin 3, idx_main_v3 (idx_main_v6 (idx_main_v8 (ix3 p n q))) k = ix3 p q k := fun k =>
    funext fun c => by match c with | ⟨0, _⟩ => rfl | ⟨1, _⟩ => rfl | ⟨2, _⟩ => rfl
  have el : ∀ k : Fin 3, lidx_main_v4 (ix3 p n q) k = ix3 p n k := fun k =>
    funext fun c => by match c with | ⟨0, _⟩ => rfl | ⟨1, _⟩ => rfl | ⟨2, _⟩ => rfl
  have er : ∀ k : Fin 3, ridx_main_v4 (ix3 p n q) k = ix3 p q k := fun k =>
    funext fun c => by match c with | ⟨0, _⟩ => rfl | ⟨1, _⟩ => rfl | ⟨2, _⟩ => rfl
  rw [val_main_v14_apply, val_main_v12_apply, val_main_v13_apply, val_main_cst_2_apply, val_main_v9_apply,
    val_main_v11_apply, val_main_v10_apply, val_main_cst_1_apply, val_main_v7_apply, val_main_v8_apply,
    val_main_v5_apply, val_main_v6_apply, val_main_v1_apply, val_main_v3_apply, val_main_v4_apply,
    val_main_cst_apply, val_main_cst_0_apply]
  simp only [val_main_v0_apply, val_main_v2_apply, e1, e3, el, er, Ideal.maximumf_def, Ideal.subf_def, Ideal.addf_def,
    Ideal.mulf_def, Ideal.ofBits_def, Ideal.ofBits_zero_f32, Law.ofBits_two]
  exact Law.clamp_expand (fun k => a (ix3 p n k)) (fun k => b (ix3 p q k)) (fun k => ha _) (fun k => hb _)

/-- The least clamped value over the second cloud's points, then the square root: the distance from point n of the
    first cloud to the nearest point of the second. The reduced axis is the last one, so coordinate q put back
    into (p, n) is (p, n, q). -/
theorem ref_near1 (a b : Cloud) (ha : AllReal a) (hb : AllReal b) :
    val_main_v17 (F := Ideal) a b = fun i => near1 a b (i 0) (i 1) := by
  funext i
  obtain ⟨p, n, rfl⟩ : ∃ (p : Fin 16) (n : Fin 4096), i = ix2 p n := ⟨i 0, i 1, eq_ix2 i⟩
  have hR : S16x4096x4096.Reduces [2] S16x4096 := by decide
  have hl : ∀ k : Fin 4096, hR.lift (ix2 p n) k = ix3 p n k := fun k =>
    funext fun c => Fin.ext (by match c with | ⟨0, _⟩ => rfl | ⟨1, _⟩ => rfl | ⟨2, _⟩ => rfl)
  rw [val_main_v17_apply, Ideal.hostUnary_sqrt_def]
  show Ideal.sqrt (val_main_v15 (F := Ideal) a b (ix2 p n))
    = Ideal.sqrt ((Finset.univ : Finset (Fin 4096)).fold min ⊤ fun q => dsq a b p n q)
  refine congrArg Ideal.sqrt ?_
  unfold val_main_v15
  generalize hy : val_main_v14 (F := Ideal) a b = y
  have hd : ∀ q : Fin 4096, y (ix3 p n q) = dsq a b p n q := fun q => by
    rw [← hy]; exact clamped_apply a b ha hb p n q
  rw [Host.reduce_eq_fold_single (α := Ideal .f32) (s := S16x4096x4096) (t := S16x4096) (a := 2) (FloatOps.minimumf (F := Ideal) (φ := .f32)) y _ reducesTo_S16x4096x4096_S16x4096_d2 hR h_S_ (ix2 p n)]
  show (Finset.univ : Finset (Fin 4096)).fold min (Ideal.ofBits .f32 0x7F800000#32) (fun q => y (hR.lift (ix2 p n) q))
    = (Finset.univ : Finset (Fin 4096)).fold min ⊤ fun q => dsq a b p n q
  rw [Law.ofBits_inf]
  exact congrArg (fun f => Finset.fold min ⊤ f (Finset.univ : Finset (Fin 4096))) (funext fun q => by rw [hl q, hd q])

/-- The least clamped value over the first cloud's points, then the square root: the distance from point q of the
    second cloud to the nearest point of the first. The reduced axis is the middle one, so coordinate n put back
    into (p, q) is (p, n, q). -/
theorem ref_near2 (a b : Cloud) (ha : AllReal a) (hb : AllReal b) :
    val_main_v20 (F := Ideal) a b = fun i => near2 a b (i 0) (i 1) := by
  funext i
  obtain ⟨p, q, rfl⟩ : ∃ (p : Fin 16) (q : Fin 4096), i = ix2 p q := ⟨i 0, i 1, eq_ix2 i⟩
  have hR : S16x4096x4096.Reduces [1] S16x4096 := by decide
  have hl : ∀ k : Fin 4096, hR.lift (ix2 p q) k = ix3 p k q := fun k =>
    funext fun c => Fin.ext (by match c with | ⟨0, _⟩ => rfl | ⟨1, _⟩ => rfl | ⟨2, _⟩ => rfl)
  rw [val_main_v20_apply, Ideal.hostUnary_sqrt_def]
  show Ideal.sqrt (val_main_v16 (F := Ideal) a b (ix2 p q))
    = Ideal.sqrt ((Finset.univ : Finset (Fin 4096)).fold min ⊤ fun n => dsq a b p n q)
  refine congrArg Ideal.sqrt ?_
  unfold val_main_v16
  generalize hy : val_main_v14 (F := Ideal) a b = y
  have hd : ∀ n : Fin 4096, y (ix3 p n q) = dsq a b p n q := fun n => by
    rw [← hy]; exact clamped_apply a b ha hb p n q
  rw [Host.reduce_eq_fold_single (α := Ideal .f32) (s := S16x4096x4096) (t := S16x4096) (a := 1) (FloatOps.minimumf (F := Ideal) (φ := .f32)) y _ reducesTo_S16x4096x4096_S16x4096_d1 hR h_S_ (ix2 p q)]
  show (Finset.univ : Finset (Fin 4096)).fold min (Ideal.ofBits .f32 0x7F800000#32) (fun n => y (hR.lift (ix2 p q) n))
    = (Finset.univ : Finset (Fin 4096)).fold min ⊤ fun n => dsq a b p n q
  rw [Law.ofBits_inf]
  exact congrArg (fun f => Finset.fold min ⊤ f (Finset.univ : Finset (Fin 4096))) (funext fun n => by rw [hl n, hd n])

end Cert.ReferenceIdeal.RefValue

end
-- ==== Proof.RefTail.lean ====
/-
  The reference's result is the common averaging applied to its two arrays of square roots.

  After the two square roots the reference sums each [16, 4096] array from zero, divides by 65536, adds the two
  quotients, divides by 2 and multiplies by 1000: word for word the averaging named in the module Tail.
-/
import proofs.«179750_j19164144075465_2_alg».proof.Proof.Gen.ReferenceIdeal.Read
import proofs.«179750_j19164144075465_2_alg».proof.Proof.Spec
import proofs.«179750_j19164144075465_2_alg».proof.Proof.Tail

noncomputable section

namespace Cert.ReferenceIdeal.RefValue

open Cert.ReferenceIdeal Cert.ReferenceIdeal.Gen Cert.ReferenceIdeal.Read Idealize.ShloMosaic Cert.Chamfer

/-- The reference's last stage is the averaging of its two arrays of square roots. -/
theorem ref_result (a b : Cloud) :
    val_main_v25 (F := Ideal) a b
      = Cert.Chamfer.tail (val_main_v17 (F := Ideal) a b) (val_main_v20 (F := Ideal) a b) := rfl

end Cert.ReferenceIdeal.RefValue

end
-- ==== Proof.Finite.lean ====
/-
  Finite inputs are real numbers.

  The precondition says of each argument array that every entry's absolute value is strictly below +∞, the whole
  array folded by "and" into one bit, and the two bits joined by "and". An extended real whose absolute value
  max x (−x) lies strictly below ⊤ is neither ⊤ nor ⊥, so it is (the image of) a real number. Read entry by entry,
  the precondition therefore gives real witnesses for every coordinate of both clouds.
-/
import proofs.«179750_j19164144075465_2_alg».proof.Defs
import proofs.«179750_j19164144075465_2_alg».proof.Proof.Spec
import Idealize.ShloMosaic.Lib.ReduceAll

noncomputable section

namespace Cert.Chamfer.Finite

open Idealize.ShloMosaic Idealize.ShloMosaic.ValueIdx Idealize.SL.Sem

/-- The rank-0 shape has one index. -/
instance : Subsingleton Cert.Pre_finite_inputs.S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value is strictly below +∞ (as the comparison bit says) is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The printed precondition, all ones, makes every entry of both argument arrays a real number. -/
theorem allReal_of_fn [Cert.Pre_finite_inputs.Facts] (x0 x1 : FVec Ideal Cert.Pre_finite_inputs.S16x4096x3 .f32)
    (h : Cert.Pre_finite_inputs.fn (F := Ideal) x0 x1 = fun _ => 1#1) :
    Cert.Chamfer.AllReal x0 ∧ Cert.Chamfer.AllReal x1 := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_abs_lt (x0 i) e
  · have e := Host.reduce_andi_all _ _ _ _ _ hb i
    exact real_of_abs_lt (x1 i) e

/-- Under the kernel's precondition both argument arrays, on every device, have real entries. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Chamfer.AllReal (m ((c.tc : Thread Cert.KernelIdeal.nD Cert.KernelIdeal.τ).loc Cert.KernelIdeal.main_arg0))
      ∧ Cert.Chamfer.AllReal (m ((c.tc : Thread Cert.KernelIdeal.nD Cert.KernelIdeal.τ).loc Cert.KernelIdeal.main_arg1)) :=
  allReal_of_fn _ _ (h c)

end Cert.Chamfer.Finite

end
-- ==== Proof.lean ====
/-
  Nearest-neighbour (chamfer) distance between two clouds of 16 × 4096 points in 3-space: the tiled kernel against
  the plain formula.

  The kernel visits 16 batches × 8 tiles of 512 points of the first cloud. For a tile it forms the squared distances
  to all 4096 points of the batch's second cloud as the sum of the three squared coordinate differences, stores the
  square roots of the row minima (the distance from each point of the tile to its nearest neighbour in the second
  cloud), and keeps a running column minimum over the batch's eight tiles whose square root, taken at the last tile,
  is the distance from each point of the second cloud to its nearest neighbour in the first. The host then averages
  each family of distances, adds the two means, halves and scales by 1000.
  The reference forms the squared distances as |x|² + |y|² − 2⟨x,y⟩ clamped below at zero. Over the reals that
  expression IS the sum of the squared coordinate differences, which is never negative, so the clamp is the identity;
  this is where the finiteness of the inputs is used (over the extended reals the expansion fails at infinities).
  Least values are folds of min from the top element on both sides, so tiling and order do not matter, and the two
  programs end with the same averaging of the same two families of distances.

  The three frames: each case of the kernel body (first, middle, last tile of a batch) is run once on symbolic
  buffers; the pipeline's proof data names what every staging buffer holds after every point; the library's launch
  theorem runs the host line before the region, the region and the host lines after it. The reference is host
  operations only.
-/
import proofs.«179750_j19164144075465_2_alg».proof.Defs
import proofs.«179750_j19164144075465_2_alg».proof.Proof.Gen.Kernel
import proofs.«179750_j19164144075465_2_alg».proof.Proof.Gen.KernelIdeal
import proofs.«179750_j19164144075465_2_alg».proof.Proof.Gen.ReferenceIdeal
import proofs.«179750_j19164144075465_2_alg».proof.Proof.Gen.ReferenceIdeal.Run
import proofs.«179750_j19164144075465_2_alg».proof.Proof.Gen.ReferenceIdeal.Read
import proofs.«179750_j19164144075465_2_alg».proof.Proof.Gen.Pre_finite_inputs
import proofs.«179750_j19164144075465_2_alg».proof.Proof.Kernel.Oblig
import proofs.«179750_j19164144075465_2_alg».proof.Proof.KernelIdeal.Oblig
import proofs.«179750_j19164144075465_2_alg».proof.Proof.ArraysOut1
import proofs.«179750_j19164144075465_2_alg».proof.Proof.ArraysOut2
import proofs.«179750_j19164144075465_2_alg».proof.Proof.KernelTail
import proofs.«179750_j19164144075465_2_alg».proof.Proof.RefSide
import proofs.«179750_j19164144075465_2_alg».proof.Proof.RefTail
import proofs.«179750_j19164144075465_2_alg».proof.Proof.Finite
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel [Cert.Kernel.Facts] [Cert.Pre_finite_inputs.Facts] : Cert.frame_Kernel :=
  fun m ρ _ => Cert.Kernel.Body.frame (F := Bits) m ρ

/-- So does the kernel read at the ideal instance. -/
theorem frame_kernelIdeal [Cert.KernelIdeal.Facts] [Cert.Pre_finite_inputs.Facts] : Cert.frame_KernelIdeal :=
  fun m ρ _ => Cert.KernelIdeal.Body.frame (F := Ideal) m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- What both programs end with: the two families of nearest distances averaged, the means added, halved and scaled. -/
def answer (a b : Cert.Chamfer.Cloud) : FVec Ideal (⟨0, ![]⟩ : Shape) .f32 :=
  Cert.Chamfer.tail (fun i => Cert.Chamfer.near1 a b (i 0) (i 1)) (fun i => Cert.Chamfer.near2 a b (i 0) (i 1))

section KernelValue

open Cert.KernelIdeal Cert.KernelIdeal.Gen Cert.KernelIdeal.Body

/-- The idealized kernel's run, read: its result is `answer` of its two argument arrays, which end unchanged. The host
    lines after the region reshape the two output arrays ([16,4096,1] and [16,1,4096], each to [16,4096]) and average
    them; the first array holds the nearest distances from the first cloud, the second those from the second. -/
theorem kernel_value [Cert.KernelIdeal.Facts] (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v10)
            = answer (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun r h c =>
    ⟨((h c).2 main_v10 (Pipeline.mem_restRefs_of main_v10 (by decide) (by decide))).trans
        ((Cert.KernelIdeal.TailValue.kernel_result m (dats m) c).trans (by
          rw [Cert.KernelIdeal.Arrays.out1_final m c, Cert.KernelIdeal.Arrays.out2_final m c,
            Cert.Chamfer.shapeCast_cols, Cert.Chamfer.shapeCast_rows]
          rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (Cert.KernelIdeal.Body.run_main (F := Ideal) m ρ)

end KernelValue

/-- At the ideal instance the kernel and the reference, run from memories that agree on the two clouds, end with equal
    results: the kernel's is `answer` of the clouds; the reference's run ends at its operations' term, which for real
    coordinates (the precondition) is the same `answer` — its clamped squared distances are the sums of squared
    coordinate differences, its least values the same folds of min, its averaging the same operations. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => answer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), kernel_value m ρ, ?_⟩
  refine (θ_run Cert.ReferenceIdeal.defs _ _).mono (fun _ h c => ⟨(h c).1.trans ((Cert.ReferenceIdeal.Read.val_main_v25_eq _ _).trans ?_), (h c).2⟩)
    (Cert.ReferenceIdeal.Value.run (F := Ideal) m' ρ')
  obtain ⟨ha, hb⟩ := Cert.Chamfer.Finite.real_of_pre m hpre c
  rw [(hagree c).1, (hagree c).2, Cert.ReferenceIdeal.RefValue.ref_result,
    Cert.ReferenceIdeal.RefValue.ref_near1 _ _ ha hb, Cert.ReferenceIdeal.RefValue.ref_near2 _ _ ha hb]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
